-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x512 : Shape := ⟨2, ![256, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S16384x256 .f32) (main_arg1 : FVec F S16384x16384 .f32) (main_arg2 : FVec F S256x512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S16384x256 : Shape := ⟨2, ![16384, 256]⟩
abbrev S16384x16384 : Shape := ⟨2, ![16384, 16384]⟩
abbrev S256x512 : Shape := ⟨2, ![256, 512]⟩
abbrev S512x256 : Shape := ⟨2, ![512, 256]⟩
abbrev S1024x2048 : Shape := ⟨2, ![1024, 2048]⟩
abbrev S2048x256 : Shape := ⟨2, ![2048, 256]⟩
abbrev S1024x256 : Shape := ⟨2, ![1024, 256]⟩
abbrev S1024x1 : Shape := ⟨2, ![1024, 1]⟩
abbrev S1024 : Shape := ⟨1, ![1024]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x512, .f32⟩
  | .hbm, ⟨3, _⟩ => ⟨S512x256, .f32⟩
  | .hbm, ⟨4, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S512x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x512_S512x256_1_0 : S256x512.Transposes [1, 0] S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  reduces_S1024x2048_S1024 : S1024x2048.Reduces [1] S1024
  shapeCasts_S1024_S1024x1 : S1024.ShapeCasts S1024x1
  broadcasts_S1024x1_S1024x256 : S1024x1.Broadcasts S1024x256
  concatenates_S1024x256_S1024x256_S1024x512_d1 : Shape.Concatenates [S1024x256, S1024x256] S1024x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S1024x2048_S2048x256_S1024x256_1_0_0_1_n_n_wf : DotDims.WF S1024x2048 S2048x256 S1024x256 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x512 : Shape := ⟨2, ![256, 512]⟩
abbrev S_ : Shape := ⟨0, ![]⟩
abbrev S16384 : Shape := ⟨1, ![16384]⟩
abbrev S16384x1 : Shape := ⟨2, ![16384, 1]⟩
abbrev S16384x512 : Shape := ⟨2, ![16384, 512]⟩
abbrev S512x256 : Shape := ⟨2, ![512, 256]⟩

abbrev nBuf : Space → Nat
  | .hbm => 15
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x512, .f32⟩
  | .hbm, ⟨13, _⟩ => ⟨S512x256, .f32⟩
  | .hbm, ⟨14, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  concatenates_S16384x256_S16384x256_S16384x512_d1 : Shape.Concatenates [S16384x256, S16384x256] S16384x512 1
  transposes_S256x512_S512x256_1_0 : S256x512.Transposes [1, 0] S512x256
  dot_S16384x16384_S16384x256_S16384x256_1_0_0_1_n_n_wf : DotDims.WF S16384x16384 S16384x256 S16384x256 [1] [0] [0] [1] [] []
  dot_S16384x512_S512x256_S16384x256_1_0_0_1_n_n_wf : DotDims.WF S16384x512 S512x256 S16384x256 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.BitsEntry.lean ====
/-
  The region as the program finds it.

  The program transposes the weight (one host operation) and then runs the region on a 16 × 8 grid: point
  `t` is row block `t / 8` of the adjacency at column block `t % 8`.  This module fixes what the region
  finds: the arrays' contents at its entry, each window's block of its array at a point, and the fact that
  every input window's buffer holds that block whenever the body runs, fetched at that point or not.  The
  body branches twice on the column block: at the first one (`t % 8 = 0`) it clears its two accumulators,
  at the last one (`t % 8 = 7`) it finishes the row block and stores the output block; at the other points
  the output window is left as it was found and is not written back.
-/
import proofs.«174661_j30812095381967_1_alg».proof.Proof.Gen.Kernel.Launch
import proofs.«174661_j30812095381967_1_alg».proof.Proof.Gen.Kernel.Skeleton
import proofs.«174661_j30812095381967_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch contents after the transposition of the weight. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the transposition, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transposition writes none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry contents and whose body leaves the block in place: where the window is not fetched its
    block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branches, decided over the grid -/

/-- The body clears its accumulators: the column block is the first. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The body finishes the row block: the column block is the last. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column block the body stores nothing into the output window, -/
theorem idle4 : ∀ t : Fin cfg0.N, ¬isLast (grid0.coords t) → cfg0.idle 4 (grid0.coords t) = true := by decide +kernel
/-- and the window is not written back there. -/
theorem noFlush4 : ∀ t : Fin cfg0.N, ¬isLast (grid0.coords t) → (cfg0.win 4).flush t = false := by decide +kernel
/-- At the last column block it is stored whole. -/
theorem live4 : ∀ t : Fin cfg0.N, isLast (grid0.coords t) → cfg0.idle 4 (grid0.coords t) = false := by decide +kernel

/-! ## The body's memrefs -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .f32 := win0_4.stage (cfg0.slots t 4)
abbrev hs4 (t : Fin cfg0.N) : (ms4 t).IsWhole := hstage0_4 ((cfg0.slots t 4).cast nbuf0_4)
/-- The neighbour-sum accumulator and the row-weight accumulator: whole buffers of the kernel's own. -/
abbrev accM : Memref sig .tc .vmem S1024x256 .f32 := Memref.whole cc0_scratch0
abbrev degM : Memref sig .tc .vmem S1024x1 .f32 := Memref.whole cc0_scratch1
abbrev accV : View sig .tc .vmem S1024x256 .f32 := accM.view
abbrev degV : View sig .tc .vmem S1024x1 .f32 := degM.view
/-- One buffer of the output window, through which its contents are stated. -/
abbrev outV : View sig .tc .vmem S1024x256 .f32 := (Memref.whole cc0_stg4_0 : Memref sig .tc .vmem S1024x256 .f32).view

/-- What the body may use and need not describe, with the two accumulators as memrefs owned at some contents. -/
theorem PhiA_eq (c : Dev nD) :
    (Pipeline.ΦA spec0 c : sProp 𝕄)
      = iprop(iprop((∃ d, owns (c : Thread nD τ) accM fullShare d) ∗ (∃ d, owns (c : Thread nD τ) degM fullShare d)) ∗ (∃ r, prngReg c r)) := by
  unfold Pipeline.ΦA; rw [scopedRest0_eq]; simp only [accM, degM, owns_whole]; try rfl

end Cert.Kernel.Hand

end
-- ==== Proof.BitsRunFirst.lean ====
/-
  The body at the first column block of a row block.

  Both accumulators are cleared, then the block product of the adjacency block with the feature block is
  added to the neighbour accumulator and the block's row sums to the row-weight accumulator.  The buffers of
  the row block's own features, of the weight and of the output are not touched.  What the two accumulators
  end with is found as the list of the stores made into each (last first).
-/
import proofs.«174661_j30812095381967_1_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a first column block: from the adjacency and feature blocks `x0`, `x1` and accumulators holding
    anything, to the accumulators with their stores written; the other three buffers come back as they were. -/
noncomputable def runFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) :
    Σ' (LA : List (View.Piece (Elt F) S1024x256 .f32)), { LD : List (View.Piece (Elt F) S1024x1 .f32) //
      ∀ (xi2 : Vec F S1024x256 .f32) (xi3 : Vec F S512x256 .f32) (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc0__sage_kernel i arg2 harg2 arg3 harg3 arg4 harg4 arg5 harg5 arg6 harg6 arg7 harg7 arg8 harg8) K } := by
  refine ⟨?_, ?_, fun xi2 xi3 xi4 E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, ⟨%dd, %fd, -, HD⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    iexists _; iexact HD

end Cert.Kernel.Hand

end
-- ==== Proof.BitsRunMiddle.lean ====
/-
  The body at a column block that is neither the first nor the last of its row block.

  The block product of the adjacency block with the feature block is added to the neighbour accumulator and
  the block's row sums to the row-weight accumulator, both found at what the point before left in them.
  The buffers of the row block's own features, of the weight and of the output are not touched.
-/
import proofs.«174661_j30812095381967_1_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a middle column block: from the blocks `x0`, `x1` and the accumulators at `xa`, `xd`, to the
    accumulators with their stores written; the other three buffers come back as they were. -/
noncomputable def runMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) :
    Σ' (LA : List (View.Piece (Elt F) S1024x256 .f32)), { LD : List (View.Piece (Elt F) S1024x1 .f32) //
      ∀ (xi2 : Vec F S1024x256 .f32) (xi3 : Vec F S512x256 .f32) (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare xi4
            ∗ owns (c : Thread nD τ) arg7 fullShare xa ∗ owns (c : Thread nD τ) arg8 fullShare xd
            ∗ (iprop(owns (c : Thread nD τ) arg2 fullShare x0 ∗ owns (c : Thread nD τ) arg3 fullShare x1 ∗ owns (c : Thread nD τ) arg4 fullShare xi2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc0__sage_kernel i arg2 harg2 arg3 harg3 arg4 harg4 arg5 harg5 arg6 harg6 arg7 harg7 arg8 harg8) K } := by
  refine ⟨?_, ?_, fun xi2 xi3 xi4 E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfa; obtain rfl := harg8.eq_unread hfd
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    iexists _; iexact HD

end Cert.Kernel.Hand

end
-- ==== Proof.BitsRunLast.lean ====
/-
  The body at the last column block of a row block.

  After the last block product and row sums are added to the accumulators, the neighbour sums are divided by
  the row weights plus one, joined to the row block's own features, and multiplied by the transposed weight;
  the product is stored whole into the output window's buffer.
-/
import proofs.«174661_j30812095381967_1_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a last column block: from the blocks `x0`, `x1`, the row block's own features `x2`, the weight
    `x3` and the accumulators at `xa`, `xd`, the output buffer holding anything, to the output buffer and the
    accumulators with their stores written. -/
noncomputable def runLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) :
    Σ' (LO : List (View.Piece (Elt F) S1024x256 .f32)), Σ' (LA : List (View.Piece (Elt F) S1024x256 .f32)), { LD : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare xa ∗ owns (c : Thread nD τ) arg8 fullShare xd
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc0__sage_kernel i arg2 harg2 arg3 harg3 arg4 harg4 arg5 harg5 arg6 harg6 arg7 harg7 arg8 harg8) K } := by
  refine ⟨?_, ?_, ?_, fun E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3
    obtain rfl := harg7.eq_unread hfa; obtain rfl := harg8.eq_unread hfd
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HA]; · iexists _; iexact HA
    iexists _; iexact HD

end Cert.Kernel.Hand

end
-- ==== Proof.BitsLeft.lean ====
/-
  What the body leaves behind, case by case.

  Each run of the body ends with a list of stores per buffer it wrote.  Read back through the buffer, the
  stores of a case cover the whole buffer (every store writes the whole block), so what the buffer holds
  afterwards does not depend on what it held before: the accumulators after a first, a middle and a last
  column block, and the output block after a last one.
-/
import proofs.«174661_j30812095381967_1_alg».proof.Proof.BitsRunFirst
import proofs.«174661_j30812095381967_1_alg».proof.Proof.BitsRunMiddle
import proofs.«174661_j30812095381967_1_alg».proof.Proof.BitsRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## After a first column block -/

theorem coverAccFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) (y : S1024x256.Idx) :
    ∃ pc ∈ (runFirst c i arg2 harg2 arg3 harg3 arg4 harg4 arg5 harg5 arg6 harg6 arg7 harg7 arg8 harg8 hc0 hc1 x0 x1).1, y ∈ pc.1.set :=
  View.cover_of_tiledL (runFirst c i arg2 harg2 arg3 harg3 arg4 harg4 arg5 harg5 arg6 harg6 arg7 harg7 arg8 harg8 hc0 hc1 x0 x1).1 S1024x256.size (by sl_kernel_rfl) y
/-- The neighbour accumulator after a first column block. -/
def accFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) : Vec F S1024x256 .f32 :=
  accV.read (Elt F) (accV.writes (Elt F) accV.junk (runFirst c i arg2 harg2 arg3 harg3 arg4 harg4 arg5 harg5 arg6 harg6 arg7 harg7 arg8 harg8 hc0 hc1 x0 x1).1)
theorem coverDegFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) (y : S1024x1.Idx) :
    ∃ pc ∈ (runFirst c i arg2 harg2 arg3 harg3 arg4 harg4 arg5 harg5 arg6 harg6 arg7 harg7 arg8 harg8 hc0 hc1 x0 x1).2.1, y ∈ pc.1.set :=
  View.cover_of_tiledL (runFirst c i arg2 harg2 arg3 harg3 arg4 harg4 arg5 harg5 arg6 harg6 arg7 harg7 arg8 harg8 hc0 hc1 x0 x1).2.1 S1024x1.size (by sl_kernel_rfl) y
/-- The row-weight accumulator after a first column block. -/
def degFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) : Vec F S1024x1 .f32 :=
  degV.read (Elt F) (degV.writes (Elt F) degV.junk (runFirst c i arg2 harg2 arg3 harg3 arg4 harg4 arg5 harg5 arg6 harg6 arg7 harg7 arg8 harg8 hc0 hc1 x0 x1).2.1)

/-! ## After a middle column block -/

theorem coverAccMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) (y : S1024x256.Idx) :
    ∃ pc ∈ (runMiddle c i arg2 harg2 arg3 harg3 arg4 harg4 arg5 harg5 arg6 harg6 arg7 harg7 arg8 harg8 hc0 hc1 x0 x1 xa xd).1, y ∈ pc.1.set :=
  View.cover_of_tiledL (runMiddle c i arg2 harg2 arg3 harg3 arg4 harg4 arg5 harg5 arg6 harg6 arg7 harg7 arg8 harg8 hc0 hc1 x0 x1 xa xd).1 S1024x256.size (by sl_kernel_rfl) y
/-- The neighbour accumulator after a middle column block, from what the point before left. -/
def accMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) : Vec F S1024x256 .f32 :=
  accV.read (Elt F) (accV.writes (Elt F) accV.junk (runMiddle c i arg2 harg2 arg3 harg3 arg4 harg4 arg5 harg5 arg6 harg6 arg7 harg7 arg8 harg8 hc0 hc1 x0 x1 xa xd).1)
theorem coverDegMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) (y : S1024x1.Idx) :
    ∃ pc ∈ (runMiddle c i arg2 harg2 arg3 harg3 arg4 harg4 arg5 harg5 arg6 harg6 arg7 harg7 arg8 harg8 hc0 hc1 x0 x1 xa xd).2.1, y ∈ pc.1.set :=
  View.cover_of_tiledL (runMiddle c i arg2 harg2 arg3 harg3 arg4 harg4 arg5 harg5 arg6 harg6 arg7 harg7 arg8 harg8 hc0 hc1 x0 x1 xa xd).2.1 S1024x1.size (by sl_kernel_rfl) y
/-- The row-weight accumulator after a middle column block. -/
def degMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) : Vec F S1024x1 .f32 :=
  degV.read (Elt F) (degV.writes (Elt F) degV.junk (runMiddle c i arg2 harg2 arg3 harg3 arg4 harg4 arg5 harg5 arg6 harg6 arg7 harg7 arg8 harg8 hc0 hc1 x0 x1 xa xd).2.1)

/-! ## After a last column block -/

theorem coverOutLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) (y : S1024x256.Idx) :
    ∃ pc ∈ (runLast c i arg2 harg2 arg3 harg3 arg4 harg4 arg5 harg5 arg6 harg6 arg7 harg7 arg8 harg8 hc0 hc1 x0 x1 x2 x3 xa xd).1, y ∈ pc.1.set :=
  View.cover_of_tiledL (runLast c i arg2 harg2 arg3 harg3 arg4 harg4 arg5 harg5 arg6 harg6 arg7 harg7 arg8 harg8 hc0 hc1 x0 x1 x2 x3 xa xd).1 S1024x256.size (by sl_kernel_rfl) y
/-- The output block after a last column block. -/
def outLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) : Vec F S1024x256 .f32 :=
  outV.read (Elt F) (outV.writes (Elt F) outV.junk (runLast c i arg2 harg2 arg3 harg3 arg4 harg4 arg5 harg5 arg6 harg6 arg7 harg7 arg8 harg8 hc0 hc1 x0 x1 x2 x3 xa xd).1)
theorem coverAccLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) (y : S1024x256.Idx) :
    ∃ pc ∈ (runLast c i arg2 harg2 arg3 harg3 arg4 harg4 arg5 harg5 arg6 harg6 arg7 harg7 arg8 harg8 hc0 hc1 x0 x1 x2 x3 xa xd).2.1, y ∈ pc.1.set :=
  View.cover_of_tiledL (runLast c i arg2 harg2 arg3 harg3 arg4 harg4 arg5 harg5 arg6 harg6 arg7 harg7 arg8 harg8 hc0 hc1 x0 x1 x2 x3 xa xd).2.1 S1024x256.size (by sl_kernel_rfl) y
/-- The neighbour accumulator after a last column block. -/
def accLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) : Vec F S1024x256 .f32 :=
  accV.read (Elt F) (accV.writes (Elt F) accV.junk (runLast c i arg2 harg2 arg3 harg3 arg4 harg4 arg5 harg5 arg6 harg6 arg7 harg7 arg8 harg8 hc0 hc1 x0 x1 x2 x3 xa xd).2.1)
theorem coverDegLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) (y : S1024x1.Idx) :
    ∃ pc ∈ (runLast c i arg2 harg2 arg3 harg3 arg4 harg4 arg5 harg5 arg6 harg6 arg7 harg7 arg8 harg8 hc0 hc1 x0 x1 x2 x3 xa xd).2.2.1, y ∈ pc.1.set :=
  View.cover_of_tiledL (runLast c i arg2 harg2 arg3 harg3 arg4 harg4 arg5 harg5 arg6 harg6 arg7 harg7 arg8 harg8 hc0 hc1 x0 x1 x2 x3 xa xd).2.2.1 S1024x1.size (by sl_kernel_rfl) y
/-- The row-weight accumulator after a last column block. -/
def degLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) : Vec F S1024x1 .f32 :=
  degV.read (Elt F) (degV.writes (Elt F) degV.junk (runLast c i arg2 harg2 arg3 harg3 arg4 harg4 arg5 harg5 arg6 harg6 arg7 harg7 arg8 harg8 hc0 hc1 x0 x1 x2 x3 xa xd).2.2.1)

end Cert.Kernel.Hand

end
-- ==== Proof.BitsCarried.lean ====
/-
  The accumulation over the grid, the proof data and the body's obligation.

  Within a row block the neighbour accumulator and the row-weight accumulator are cleared at the first column
  block and then receive one block product and one block of row sums per column block; at the last column
  block the output block is computed from them.  `carried` follows the two accumulators (and the output
  block) point by point: what a point leaves is that point's case run from what the point before left.  The
  region's invariant holds the two accumulators at those contents from one point to the next; before the
  very first point they hold anything.  The input windows' buffers hold their blocks at every point and are
  handed back as found; the output window is stored at the last column block of each row block, and left as
  found elsewhere.  The features' array is read through two windows, which hold it at half the share each.
-/
import proofs.«174661_j30812095381967_1_alg».proof.Proof.BitsLeft

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves, by its case -/

theorem first_of_mod (t : Fin cfg0.N) (h0 : t.val % 8 = 0) : isFirst (grid0.coords t) := (isFirst_iff t).mpr h0
theorem notFirst_of_mod (t : Fin cfg0.N) (h0 : ¬t.val % 8 = 0) : ¬isFirst (grid0.coords t) := fun h => h0 ((isFirst_iff t).mp h)
theorem last_of_mod (t : Fin cfg0.N) (h1 : t.val % 8 = 7) : isLast (grid0.coords t) := (isLast_iff t).mpr h1
theorem notLast_of_mod (t : Fin cfg0.N) (h1 : ¬t.val % 8 = 7) : ¬isLast (grid0.coords t) := fun h => h1 ((isLast_iff t).mp h)
theorem notLast_of_first (t : Fin cfg0.N) (h0 : t.val % 8 = 0) : ¬isLast (grid0.coords t) :=
  notLast_of_mod t (by omega)

/-- After a first column block: both accumulators from the point's blocks alone; the output block is not stored
    (the third component is a placeholder that nothing reads). -/
def leftFirst (c : Dev nD) (t : Fin cfg0.N) (h0 : t.val % 8 = 0) : Vec F S1024x256 .f32 × Vec F S1024x1 .f32 × Vec F S1024x256 .f32 :=
  (accFirst c (grid0.coords t) (ms0 t) (hs0 t) (ms1 t) (hs1 t) (ms2 t) (hs2 t) (ms3 t) (hs3 t) (ms4 t) (hs4 t) accM (Memref.isWhole_whole _) degM (Memref.isWhole_whole _) (first_of_mod t h0) (notLast_of_first t h0) (iblk m c 0 t) (iblk m c 1 t),
   degFirst c (grid0.coords t) (ms0 t) (hs0 t) (ms1 t) (hs1 t) (ms2 t) (hs2 t) (ms3 t) (hs3 t) (ms4 t) (hs4 t) accM (Memref.isWhole_whole _) degM (Memref.isWhole_whole _) (first_of_mod t h0) (notLast_of_first t h0) (iblk m c 0 t) (iblk m c 1 t),
   outV.read (Elt F) outV.junk)

/-- After a middle column block, from what the point before left in the accumulators. -/
def leftMiddle (c : Dev nD) (t : Fin cfg0.N) (h0 : ¬t.val % 8 = 0) (h1 : ¬t.val % 8 = 7)
    (xa : Vec F S1024x256 .f32) (xd : Vec F S1024x1 .f32) : Vec F S1024x256 .f32 × Vec F S1024x1 .f32 × Vec F S1024x256 .f32 :=
  (accMiddle c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (notLast_of_mod t h1) (iblk m c 0 t) (iblk m c 1 t) xa xd,
   degMiddle c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (notLast_of_mod t h1) (iblk m c 0 t) (iblk m c 1 t) xa xd,
   outV.read (Elt F) outV.junk)

/-- After a last column block, from what the point before left in the accumulators: the output block too. -/
def leftLast (c : Dev nD) (t : Fin cfg0.N) (h0 : ¬t.val % 8 = 0) (h1 : t.val % 8 = 7)
    (xa : Vec F S1024x256 .f32) (xd : Vec F S1024x1 .f32) : Vec F S1024x256 .f32 × Vec F S1024x1 .f32 × Vec F S1024x256 .f32 :=
  (accLast c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (last_of_mod t h1) (iblk m c 0 t) (iblk m c 1 t) (iblk m c 2 t) (iblk m c 3 t) xa xd,
   degLast c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (last_of_mod t h1) (iblk m c 0 t) (iblk m c 1 t) (iblk m c 2 t) (iblk m c 3 t) xa xd,
   outLast c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (last_of_mod t h1) (iblk m c 0 t) (iblk m c 1 t) (iblk m c 2 t) (iblk m c 3 t) xa xd)

/-! ## The accumulation -/

/-- What the neighbour accumulator, the row-weight accumulator and the output window's buffer hold after the body at
    position `n`: the case of `n`, a middle or last column block run from what position `n - 1` left. -/
def carried (c : Dev nD) : (n : ℕ) → n < cfg0.N → Vec F S1024x256 .f32 × Vec F S1024x1 .f32 × Vec F S1024x256 .f32
  | 0, hn => leftFirst m c ⟨0, hn⟩ (Nat.zero_mod _)
  | n + 1, hn =>
    if h0 : (n + 1) % 8 = 0 then leftFirst m c ⟨n + 1, hn⟩ h0
    else if h1 : (n + 1) % 8 = 7 then
      leftLast m c ⟨n + 1, hn⟩ h0 h1 (carried c n (Nat.lt_of_succ_lt hn)).1 (carried c n (Nat.lt_of_succ_lt hn)).2.1
    else
      leftMiddle m c ⟨n + 1, hn⟩ h0 h1 (carried c n (Nat.lt_of_succ_lt hn)).1 (carried c n (Nat.lt_of_succ_lt hn)).2.1

theorem carried_first (c : Dev nD) (t : Fin cfg0.N) (h0 : t.val % 8 = 0) :
    carried m c t.val t.isLt = leftFirst m c t h0 := by
  obtain ⟨n, hn⟩ := t
  cases n with
  | zero => exact rfl
  | succ n => exact (dif_pos h0).trans rfl

theorem carried_middle (c : Dev nD) (t : Fin cfg0.N) (h0 : ¬t.val % 8 = 0) (h1 : ¬t.val % 8 = 7) :
    carried m c t.val t.isLt = leftMiddle m c t h0 h1
      (carried m c (t.val - 1) (Nat.lt_of_le_of_lt (Nat.sub_le _ _) t.isLt)).1
      (carried m c (t.val - 1) (Nat.lt_of_le_of_lt (Nat.sub_le _ _) t.isLt)).2.1 := by
  obtain ⟨n, hn⟩ := t
  cases n with
  | zero => exact (by exfalso; (try dsimp only at h0); exact absurd (Nat.zero_mod _) h0)
  | succ n => exact (dif_neg h0).trans ((dif_neg h1).trans rfl)

theorem carried_last (c : Dev nD) (t : Fin cfg0.N) (h0 : ¬t.val % 8 = 0) (h1 : t.val % 8 = 7) :
    carried m c t.val t.isLt = leftLast m c t h0 h1
      (carried m c (t.val - 1) (Nat.lt_of_le_of_lt (Nat.sub_le _ _) t.isLt)).1
      (carried m c (t.val - 1) (Nat.lt_of_le_of_lt (Nat.sub_le _ _) t.isLt)).2.1 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the accumulators hold anything; afterwards what position `n - 1` left. -/
def PhiS (c : Dev nD) : (n : ℕ) → n ≤ cfg0.N → sProp 𝕄
  | 0, _ => Pipeline.ΦA spec0 c
  | n + 1, hn => iprop(iprop(owns (c : Thread nD τ) accM fullShare ((carried m c n hn).1) ∗ owns (c : Thread nD τ) degM fullShare ((carried m c n hn).2.1)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((carried m c n hn).1) ∗ owns (c : Thread nD τ) degM fullShare ((carried m c n hn).2.1)) ∗ (∃ r, prngReg c r)) := rfl

theorem PhiS_pos (c : Dev nD) (n : ℕ) (h : n ≤ cfg0.N) (hz : n ≠ 0) :
    PhiS m c n h = iprop(iprop(owns (c : Thread nD τ) accM fullShare ((carried m c (n - 1) (by omega)).1) ∗ owns (c : Thread nD τ) degM fullShare ((carried m c (n - 1) (by omega)).2.1)) ∗ (∃ r, prngReg c r)) := by
  cases n with
  | zero => exact absurd rfl hz
  | succ n => rfl

/-! ## The proof data -/

/-- The arrays as the region finds them; after the body each input's buffer at its block and the output's at the
    accumulation's third component; the invariant above; the features' array held at half the share by each of its
    two windows, every other array at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (carried m c t.val t.isLt).2.2
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q0 (c : Dev nD) : (dats m 0 c).q 0 = fullShare := by dsimp only [dats]
theorem q1 (c : Dev nD) : (dats m 0 c).q 1 = fullShare.left := by dsimp only [dats]
theorem q2 (c : Dev nD) : (dats m 0 c).q 2 = fullShare.right := by dsimp only [dats]
theorem q3 (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (carried m c t.val t.isLt).2.2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body's obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' buffers hold their blocks; the point's position in its row block says which
    case it is; the invariant hands the body the accumulators at what the point before left (at anything before the
    very first point, and the first column block needs nothing of them) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 128 := lt_of_lt_of_eq t.isLt (show cfg0.N = 128 from N_0)
  by_cases h0 : t.val % 8 = 0
  · have hnl : ¬isLast (grid0.coords t) := notLast_of_first t h0
    rw [Dat.leavesExact_idle (dats m 0 c) 4 t (idle4 t hnl) (noFlush4 t hnl)]
    rw [carried_first m c t h0]
    unfold leftFirst accFirst degFirst; (try dsimp only)
    by_cases hz : t.val = 0
    · rw [PhiS_castSucc m c t, PhiS_zero m c _ _ hz, PhiA_eq]
      iintro ⟨⟨⟨HA, HD⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ (first_of_mod t h0) hnl (iblk m c 0 t) (iblk m c 1 t)).2.2 _ _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccFirst c _ _ _ _ _ _ _ _ _ _ _ _ _ _ _ _ _ _ _)
          · unfold owns; iexists _; isplitr
            swap; · iexact HD
            ipureintro; exact View.read_writes_of_cover _ _ _ _ _ (coverDegFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HA, HD⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ (first_of_mod t h0) hnl (iblk m c 0 t) (iblk m c 1 t)).2.2 _ _ _ Set.univ _)
      isplitl [H0]; · iexact H0
      isplitl [H1]; · iexact H1
      isplitl [H2]; · iexact H2
      isplitl [H3]; · iexact H3
      isplitl [H4]; · iexact H4
      isplitl [HA]; · iexists _; iexact HA
      isplitl [HD]; · iexists _; iexact HD
      iintro ⟨H0, H1, H2, H3, H4, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccFirst c _ _ _ _ _ _ _ _ _ _ _ _ _ _ _ _ _ _ _)
          · unfold owns; iexists _; isplitr
            swap; · iexact HD
            ipureintro; exact View.read_writes_of_cover _ _ _ _ _ (coverDegFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · have hl : isLast (grid0.coords t) := last_of_mod t h1
      rw [show (dats m 0 c).leavesExact 4 t = owns (c : Thread nD τ) (ms4 t) fullShare ((dats m 0 c).after 4 t) from by
        unfold Dat.leavesExact; rw [live4 t hl], after4]
      rw [carried_last m c t h0 h1]
      unfold leftLast accLast degLast outLast; (try dsimp only)
      rw [PhiS_castSucc m c t, PhiS_pos m c _ _ hz]
      iintro ⟨⟨⟨HA, HD⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (notFirst_of_mod t h0) hl (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HA]; · iexact HA
      isplitl [HD]; · iexact HD
      iintro ⟨H0, H1, H2, H3, ⟨%e4, H4⟩, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccLast c _ _ _ _ _ _ _ _ _ _ _ _ _ _ _ _ _ _ _ _ _ _ _)
          · unfold owns; iexists _; isplitr
            swap; · iexact HD
            ipureintro; exact View.read_writes_of_cover _ _ _ _ _ (coverDegLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutLast c _ _ _ _ _ _ _ _ _ _ _ _ _ _ _ _ _ _ _ _ _ _ _)
    · have hnl : ¬isLast (grid0.coords t) := notLast_of_mod t h1
      rw [Dat.leavesExact_idle (dats m 0 c) 4 t (idle4 t hnl) (noFlush4 t hnl)]
      rw [carried_middle m c t h0 h1]
      unfold leftMiddle accMiddle degMiddle; (try dsimp only)
      rw [PhiS_castSucc m c t, PhiS_pos m c _ _ hz]
      iintro ⟨⟨⟨HA, HD⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ _ _ (notFirst_of_mod t h0) hnl (iblk m c 0 t) (iblk m c 1 t) _ _).2.2 _ _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccMiddle c _ _ _ _ _ _ _ _ _ _ _ _ _ _ _ _ _ _ _ _ _)
          · unfold owns; iexists _; isplitr
            swap; · iexact HD
            ipureintro; exact View.read_writes_of_cover _ _ _ _ _ (coverDegMiddle c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HA, HD⟩, Hg⟩
  isplitl [HA HD]
  · isplitl [HA]
    · iexists _; iexact HA
    · iexists _; iexact HD
  iexact Hg

end Cert.Kernel.Hand

end
-- ==== Proof.BitsLaunch.lean ====
/-
  The launch of the region when two of its windows read one array.

  The region's five windows stand on four buffers: the adjacency, the features (read through two windows, one
  by column blocks of the adjacency's columns and one by row blocks), the transposed weight, and the output.
  Each buffer is held whole when the region is entered; the features' buffer is dealt to its two windows in
  halves of the full share, and each other window holds its buffer whole.  With that split the launch theorem
  for windows that may share an array gives the run: every weakly fair execution ends, each window's array at
  the contents the proof data computes, and the weight — which bypasses the region — as it was.
-/
import proofs.«174661_j30812095381967_1_alg».proof.Proof.BitsEntry
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The four buffers behind the five windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_v0) ↦{fullShare} W main_v0) ∗ (((c : Thread nD τ).loc main_v1) ↦{fullShare} W main_v1)) := by
  unfold Pipeline.arrBufs
  exact bigSep_eq_bigSepL_of_eq [main_arg1, main_arg0, main_v0, main_v1] (by decide) (by decide) _

/-- The buffers behind the arrays, the features' buffer dealt in halves to the two windows that read it. -/
theorem split_arrays {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have s0 : dat.share 0 = fullShare := by unfold Dat.share; exact hq0
  have s1 : dat.share 1 = fullShare.left := by unfold Dat.share; exact hq1
  have s2 : dat.share 2 = fullShare.right := by unfold Dat.share; exact hq2
  have s3 : dat.share 3 = fullShare := by unfold Dat.share; exact hq3
  have s4 : dat.share 4 = fullShare := by unfold Dat.share; rfl
  rw [arrBufs0_eq]
  unfold Dat.arrays
  rw [bigSep_W0]
  simp only [View.set_whole]
  rw [s0, s1, s2, s3, s4, show dat.arrAt 0 0 = V m c main_arg1 from hA 0, show dat.arrAt 1 0 = V m c main_arg0 from hA 1,
    show dat.arrAt 2 0 = V m c main_arg0 from hA 2, show dat.arrAt 3 0 = V m c main_v0 from hA 3,
    show dat.arrAt 4 0 = V m c main_v1 from hA 4]
  iintro ⟨H1, H0, Hv0, Hv1⟩
  ihave H0 := (pointsTo_share (PosShare.mem_left_op_right fullShare)).1 $$ H0
  icases H0 with ⟨H0l, H0r⟩
  isplitl [H1]; · iexact H1
  isplitl [H0l]; · iexact H0l
  isplitl [H0r]; · iexact H0r
  isplitl [Hv0]; · iexact Hv0
  iexact Hv1

/-! ## The run -/

/-- The weight's buffer bypasses the region: held whole throughout, the memory holds its entry contents at the end. -/
theorem read_weight (c : Dev nD) (s' : Phys nD τ sig (Elt F)) :
    iprop((∃ r, prngReg c r) ∗ Pipeline.unscopedRest (Ix := Unit) (Name := ℕ) (U := UR sig nD τ) (Lvl := ℕ) spec0 c (V m c) ∗ SI s')
      ⊢ (|={Set.univ}=> iprop(⌜s'.mem.mem ((c.tc : Thread nD τ).loc main_arg2) = V m c main_arg2⌝ ∗ SI s') : sProp 𝕄) := by
  unfold Pipeline.unscopedRest
  iintro ⟨-, HU, HSI⟩
  imodintro
  ihave H := (pointsTo_read_all (Pipeline.restRefs sig spec0) (fun b => (c.tc : Thread nD τ).loc b) (V m c) s') $$ [HU HSI]
  · isplitl [HU] <;> iassumption
  icases H with ⟨%h, HSI⟩
  isplitr
  · ipureintro
    exact h main_arg2 (Pipeline.mem_restRefs_of main_arg2 rfl (by decide))
  · iexact HSI

/-- The run: every weakly fair execution ends with each window's array at the proof data's final contents and the
    weight unchanged. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare) (hq1 : ∀ c, (dats 0 c).q 1 = fullShare.left) (hq2 : ∀ c, (dats 0 c).q 2 = fullShare.right) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem (((cfgs 0).spec w).arr.view.loc (c.tc : Thread nD τ)) = (dats 0 c).arrAt w (cfgs 0).N)
      ∧ r.2.mem ((c.tc : Thread nD τ).loc main_arg2) = V m c main_arg2) := by
  classical
  exact Pipeline.θ_run_region_pf (fun p => (cfgs p).toPCfg) (fun p => (cfgs p).toPCfg_adm) dats () cellOf_inj 0 winFacts₀0
    (Pipeline.OwnSemFacts.none _) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => split_arrays m (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => s.mem ((c.tc : Thread nD τ).loc main_arg2) = V m c main_arg2)
    (hY := fun c s' => read_weight m c s')
    (hQ := fun s h c => ⟨(h c).1, (h c).2.2⟩)

end Cert.Kernel.Hand

end
-- ==== Proof.BitsFrame.lean ====
/-
  The run of the whole program and its frame.

  With the proof data of the accumulation, the body's obligation at every point and the launch that deals
  the features' array to its two windows, every weakly fair execution of the program ends with each window's
  array at what the proof data computes — an input array at its contents at the region's entry, which for the
  three arguments are the launch contents, since the transposition before the region writes only its own
  result — and with the weight, which no window stages, untouched.
-/
import proofs.«174661_j30812095381967_1_alg».proof.Proof.BitsCarried
import proofs.«174661_j30812095381967_1_alg».proof.Proof.BitsLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: each window's array at the proof data's final contents, the weight unchanged. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ r.2.mem ((c.tc : Thread nD τ).loc main_arg2) = V m c main_arg2) :=
  run_shared m ρ (dats m) (fun c => (body_obligation m c).loose) (q0 m) (q1 m) (q2 m) (q3 m) (fun _ _ => rfl) (A_eq m)
    (hin m) (hout m)

/-- The frame: the program runs to the end and its three arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c))),
       ((h c).2).trans (V_main_arg2 m c)⟩)
    (run_main m ρ)

end Cert.Kernel.Hand

end
-- ==== Proof.IdealEntry.lean ====
/-
  The region as the program finds it.

  The program transposes the weight (one host operation) and then runs the region on a 16 × 8 grid: point
  `t` is row block `t / 8` of the adjacency at column block `t % 8`.  This module fixes what the region
  finds: the arrays' contents at its entry, each window's block of its array at a point, and the fact that
  every input window's buffer holds that block whenever the body runs, fetched at that point or not.  The
  body branches twice on the column block: at the first one (`t % 8 = 0`) it clears its two accumulators,
  at the last one (`t % 8 = 7`) it finishes the row block and stores the output block; at the other points
  the output window is left as it was found and is not written back.
-/
import proofs.«174661_j30812095381967_1_alg».proof.Proof.Gen.KernelIdeal.Launch
import proofs.«174661_j30812095381967_1_alg».proof.Proof.Gen.KernelIdeal.Skeleton
import proofs.«174661_j30812095381967_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch contents after the transposition of the weight. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the transposition, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transposition writes none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry contents and whose body leaves the block in place: where the window is not fetched its
    block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branches, decided over the grid -/

/-- The body clears its accumulators: the column block is the first. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The body finishes the row block: the column block is the last. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column block the body stores nothing into the output window, -/
theorem idle4 : ∀ t : Fin cfg0.N, ¬isLast (grid0.coords t) → cfg0.idle 4 (grid0.coords t) = true := by decide +kernel
/-- and the window is not written back there. -/
theorem noFlush4 : ∀ t : Fin cfg0.N, ¬isLast (grid0.coords t) → (cfg0.win 4).flush t = false := by decide +kernel
/-- At the last column block it is stored whole. -/
theorem live4 : ∀ t : Fin cfg0.N, isLast (grid0.coords t) → cfg0.idle 4 (grid0.coords t) = false := by decide +kernel

/-! ## The body's memrefs -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .f32 := win0_4.stage (cfg0.slots t 4)
abbrev hs4 (t : Fin cfg0.N) : (ms4 t).IsWhole := hstage0_4 ((cfg0.slots t 4).cast nbuf0_4)
/-- The neighbour-sum accumulator and the row-weight accumulator: whole buffers of the kernel's own. -/
abbrev accM : Memref sig .tc .vmem S1024x256 .f32 := Memref.whole cc0_scratch0
abbrev degM : Memref sig .tc .vmem S1024x1 .f32 := Memref.whole cc0_scratch1
abbrev accV : View sig .tc .vmem S1024x256 .f32 := accM.view
abbrev degV : View sig .tc .vmem S1024x1 .f32 := degM.view
/-- One buffer of the output window, through which its contents are stated. -/
abbrev outV : View sig .tc .vmem S1024x256 .f32 := (Memref.whole cc0_stg4_0 : Memref sig .tc .vmem S1024x256 .f32).view

/-- What the body may use and need not describe, with the two accumulators as memrefs owned at some contents. -/
theorem PhiA_eq (c : Dev nD) :
    (Pipeline.ΦA spec0 c : sProp 𝕄)
      = iprop(iprop((∃ d, owns (c : Thread nD τ) accM fullShare d) ∗ (∃ d, owns (c : Thread nD τ) degM fullShare d)) ∗ (∃ r, prngReg c r)) := by
  unfold Pipeline.ΦA; rw [scopedRest0_eq]; simp only [accM, degM, owns_whole]; try rfl

end Cert.KernelIdeal.Hand

end
-- ==== Proof.IdealRunFirst.lean ====
/-
  The body at the first column block of a row block.

  Both accumulators are cleared, then the block product of the adjacency block with the feature block is
  added to the neighbour accumulator and the block's row sums to the row-weight accumulator.  The buffers of
  the row block's own features, of the weight and of the output are not touched.  What the two accumulators
  end with is found as the list of the stores made into each (last first).
-/
import proofs.«174661_j30812095381967_1_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a first column block: from the adjacency and feature blocks `x0`, `x1` and accumulators holding
    anything, to the accumulators with their stores written; the other three buffers come back as they were. -/
noncomputable def runFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) :
    Σ' (LA : List (View.Piece (Elt F) S1024x256 .f32)), { LD : List (View.Piece (Elt F) S1024x1 .f32) //
      ∀ (xi2 : Vec F S1024x256 .f32) (xi3 : Vec F S512x256 .f32) (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc0__sage_kernel i arg2 harg2 arg3 harg3 arg4 harg4 arg5 harg5 arg6 harg6 arg7 harg7 arg8 harg8) K } := by
  refine ⟨?_, ?_, fun xi2 xi3 xi4 E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, ⟨%dd, %fd, -, HD⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    iexists _; iexact HD

end Cert.KernelIdeal.Hand

end
-- ==== Proof.IdealRunMiddle.lean ====
/-
  The body at a column block that is neither the first nor the last of its row block.

  The block product of the adjacency block with the feature block is added to the neighbour accumulator and
  the block's row sums to the row-weight accumulator, both found at what the point before left in them.
  The buffers of the row block's own features, of the weight and of the output are not touched.
-/
import proofs.«174661_j30812095381967_1_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a middle column block: from the blocks `x0`, `x1` and the accumulators at `xa`, `xd`, to the
    accumulators with their stores written; the other three buffers come back as they were. -/
noncomputable def runMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) :
    Σ' (LA : List (View.Piece (Elt F) S1024x256 .f32)), { LD : List (View.Piece (Elt F) S1024x1 .f32) //
      ∀ (xi2 : Vec F S1024x256 .f32) (xi3 : Vec F S512x256 .f32) (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare xi4
            ∗ owns (c : Thread nD τ) arg7 fullShare xa ∗ owns (c : Thread nD τ) arg8 fullShare xd
            ∗ (iprop(owns (c : Thread nD τ) arg2 fullShare x0 ∗ owns (c : Thread nD τ) arg3 fullShare x1 ∗ owns (c : Thread nD τ) arg4 fullShare xi2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc0__sage_kernel i arg2 harg2 arg3 harg3 arg4 harg4 arg5 harg5 arg6 harg6 arg7 harg7 arg8 harg8) K } := by
  refine ⟨?_, ?_, fun xi2 xi3 xi4 E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfa; obtain rfl := harg8.eq_unread hfd
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    iexists _; iexact HD

end Cert.KernelIdeal.Hand

end
-- ==== Proof.IdealRunLast.lean ====
/-
  The body at the last column block of a row block.

  After the last block product and row sums are added to the accumulators, the neighbour sums are divided by
  the row weights plus one, joined to the row block's own features, and multiplied by the transposed weight;
  the product is stored whole into the output window's buffer.
-/
import proofs.«174661_j30812095381967_1_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a last column block: from the blocks `x0`, `x1`, the row block's own features `x2`, the weight
    `x3` and the accumulators at `xa`, `xd`, the output buffer holding anything, to the output buffer and the
    accumulators with their stores written. -/
noncomputable def runLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) :
    Σ' (LO : List (View.Piece (Elt F) S1024x256 .f32)), Σ' (LA : List (View.Piece (Elt F) S1024x256 .f32)), { LD : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare xa ∗ owns (c : Thread nD τ) arg8 fullShare xd
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LD)) -∗ K ⟨⟩))
          ⊢ wp frame (wpE (defs₀ (F := F)) Variants.none c none) E (cc0__sage_kernel i arg2 harg2 arg3 harg3 arg4 harg4 arg5 harg5 arg6 harg6 arg7 harg7 arg8 harg8) K } := by
  refine ⟨?_, ?_, ?_, fun E K => ?run⟩
  case run =>
    simp only [cc0__sage_kernel_eq_skeleton]; unfold cc0__sage_kernel_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, ⟨%fd, %hfd, HD⟩, Hk⟩
    obtain rfl := harg2.eq_unread hf0; obtain rfl := harg3.eq_unread hf1; obtain rfl := harg4.eq_unread hf2
    obtain rfl := harg5.eq_unread hf3
    obtain rfl := harg7.eq_unread hfa; obtain rfl := harg8.eq_unread hfd
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HA]; · iexists _; iexact HA
    iexists _; iexact HD

end Cert.KernelIdeal.Hand

end
-- ==== Proof.IdealLeft.lean ====
/-
  What the body leaves behind, case by case.

  Each run of the body ends with a list of stores per buffer it wrote.  Read back through the buffer, the
  stores of a case cover the whole buffer (every store writes the whole block), so what the buffer holds
  afterwards does not depend on what it held before: the accumulators after a first, a middle and a last
  column block, and the output block after a last one.
-/
import proofs.«174661_j30812095381967_1_alg».proof.Proof.IdealRunFirst
import proofs.«174661_j30812095381967_1_alg».proof.Proof.IdealRunMiddle
import proofs.«174661_j30812095381967_1_alg».proof.Proof.IdealRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## After a first column block -/

theorem coverAccFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) (y : S1024x256.Idx) :
    ∃ pc ∈ (runFirst c i arg2 harg2 arg3 harg3 arg4 harg4 arg5 harg5 arg6 harg6 arg7 harg7 arg8 harg8 hc0 hc1 x0 x1).1, y ∈ pc.1.set :=
  View.cover_of_tiledL (runFirst c i arg2 harg2 arg3 harg3 arg4 harg4 arg5 harg5 arg6 harg6 arg7 harg7 arg8 harg8 hc0 hc1 x0 x1).1 S1024x256.size (by sl_kernel_rfl) y
/-- The neighbour accumulator after a first column block. -/
def accFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) : Vec F S1024x256 .f32 :=
  accV.read (Elt F) (accV.writes (Elt F) accV.junk (runFirst c i arg2 harg2 arg3 harg3 arg4 harg4 arg5 harg5 arg6 harg6 arg7 harg7 arg8 harg8 hc0 hc1 x0 x1).1)
theorem coverDegFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) (y : S1024x1.Idx) :
    ∃ pc ∈ (runFirst c i arg2 harg2 arg3 harg3 arg4 harg4 arg5 harg5 arg6 harg6 arg7 harg7 arg8 harg8 hc0 hc1 x0 x1).2.1, y ∈ pc.1.set :=
  View.cover_of_tiledL (runFirst c i arg2 harg2 arg3 harg3 arg4 harg4 arg5 harg5 arg6 harg6 arg7 harg7 arg8 harg8 hc0 hc1 x0 x1).2.1 S1024x1.size (by sl_kernel_rfl) y
/-- The row-weight accumulator after a first column block. -/
def degFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) : Vec F S1024x1 .f32 :=
  degV.read (Elt F) (degV.writes (Elt F) degV.junk (runFirst c i arg2 harg2 arg3 harg3 arg4 harg4 arg5 harg5 arg6 harg6 arg7 harg7 arg8 harg8 hc0 hc1 x0 x1).2.1)

/-! ## After a middle column block -/

theorem coverAccMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) (y : S1024x256.Idx) :
    ∃ pc ∈ (runMiddle c i arg2 harg2 arg3 harg3 arg4 harg4 arg5 harg5 arg6 harg6 arg7 harg7 arg8 harg8 hc0 hc1 x0 x1 xa xd).1, y ∈ pc.1.set :=
  View.cover_of_tiledL (runMiddle c i arg2 harg2 arg3 harg3 arg4 harg4 arg5 harg5 arg6 harg6 arg7 harg7 arg8 harg8 hc0 hc1 x0 x1 xa xd).1 S1024x256.size (by sl_kernel_rfl) y
/-- The neighbour accumulator after a middle column block, from what the point before left. -/
def accMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) : Vec F S1024x256 .f32 :=
  accV.read (Elt F) (accV.writes (Elt F) accV.junk (runMiddle c i arg2 harg2 arg3 harg3 arg4 harg4 arg5 harg5 arg6 harg6 arg7 harg7 arg8 harg8 hc0 hc1 x0 x1 xa xd).1)
theorem coverDegMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) (y : S1024x1.Idx) :
    ∃ pc ∈ (runMiddle c i arg2 harg2 arg3 harg3 arg4 harg4 arg5 harg5 arg6 harg6 arg7 harg7 arg8 harg8 hc0 hc1 x0 x1 xa xd).2.1, y ∈ pc.1.set :=
  View.cover_of_tiledL (runMiddle c i arg2 harg2 arg3 harg3 arg4 harg4 arg5 harg5 arg6 harg6 arg7 harg7 arg8 harg8 hc0 hc1 x0 x1 xa xd).2.1 S1024x1.size (by sl_kernel_rfl) y
/-- The row-weight accumulator after a middle column block. -/
def degMiddle (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) : Vec F S1024x1 .f32 :=
  degV.read (Elt F) (degV.writes (Elt F) degV.junk (runMiddle c i arg2 harg2 arg3 harg3 arg4 harg4 arg5 harg5 arg6 harg6 arg7 harg7 arg8 harg8 hc0 hc1 x0 x1 xa xd).2.1)

/-! ## After a last column block -/

theorem coverOutLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) (y : S1024x256.Idx) :
    ∃ pc ∈ (runLast c i arg2 harg2 arg3 harg3 arg4 harg4 arg5 harg5 arg6 harg6 arg7 harg7 arg8 harg8 hc0 hc1 x0 x1 x2 x3 xa xd).1, y ∈ pc.1.set :=
  View.cover_of_tiledL (runLast c i arg2 harg2 arg3 harg3 arg4 harg4 arg5 harg5 arg6 harg6 arg7 harg7 arg8 harg8 hc0 hc1 x0 x1 x2 x3 xa xd).1 S1024x256.size (by sl_kernel_rfl) y
/-- The output block after a last column block. -/
def outLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) : Vec F S1024x256 .f32 :=
  outV.read (Elt F) (outV.writes (Elt F) outV.junk (runLast c i arg2 harg2 arg3 harg3 arg4 harg4 arg5 harg5 arg6 harg6 arg7 harg7 arg8 harg8 hc0 hc1 x0 x1 x2 x3 xa xd).1)
theorem coverAccLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) (y : S1024x256.Idx) :
    ∃ pc ∈ (runLast c i arg2 harg2 arg3 harg3 arg4 harg4 arg5 harg5 arg6 harg6 arg7 harg7 arg8 harg8 hc0 hc1 x0 x1 x2 x3 xa xd).2.1, y ∈ pc.1.set :=
  View.cover_of_tiledL (runLast c i arg2 harg2 arg3 harg3 arg4 harg4 arg5 harg5 arg6 harg6 arg7 harg7 arg8 harg8 hc0 hc1 x0 x1 x2 x3 xa xd).2.1 S1024x256.size (by sl_kernel_rfl) y
/-- The neighbour accumulator after a last column block. -/
def accLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) : Vec F S1024x256 .f32 :=
  accV.read (Elt F) (accV.writes (Elt F) accV.junk (runLast c i arg2 harg2 arg3 harg3 arg4 harg4 arg5 harg5 arg6 harg6 arg7 harg7 arg8 harg8 hc0 hc1 x0 x1 x2 x3 xa xd).2.1)
theorem coverDegLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) (y : S1024x1.Idx) :
    ∃ pc ∈ (runLast c i arg2 harg2 arg3 harg3 arg4 harg4 arg5 harg5 arg6 harg6 arg7 harg7 arg8 harg8 hc0 hc1 x0 x1 x2 x3 xa xd).2.2.1, y ∈ pc.1.set :=
  View.cover_of_tiledL (runLast c i arg2 harg2 arg3 harg3 arg4 harg4 arg5 harg5 arg6 harg6 arg7 harg7 arg8 harg8 hc0 hc1 x0 x1 x2 x3 xa xd).2.2.1 S1024x1.size (by sl_kernel_rfl) y
/-- The row-weight accumulator after a last column block. -/
def degLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) : Vec F S1024x1 .f32 :=
  degV.read (Elt F) (degV.writes (Elt F) degV.junk (runLast c i arg2 harg2 arg3 harg3 arg4 harg4 arg5 harg5 arg6 harg6 arg7 harg7 arg8 harg8 hc0 hc1 x0 x1 x2 x3 xa xd).2.2.1)

end Cert.KernelIdeal.Hand

end
-- ==== Proof.IdealCarried.lean ====
/-
  The accumulation over the grid, the proof data and the body's obligation.

  Within a row block the neighbour accumulator and the row-weight accumulator are cleared at the first column
  block and then receive one block product and one block of row sums per column block; at the last column
  block the output block is computed from them.  `carried` follows the two accumulators (and the output
  block) point by point: what a point leaves is that point's case run from what the point before left.  The
  region's invariant holds the two accumulators at those contents from one point to the next; before the
  very first point they hold anything.  The input windows' buffers hold their blocks at every point and are
  handed back as found; the output window is stored at the last column block of each row block, and left as
  found elsewhere.  The features' array is read through two windows, which hold it at half the share each.
-/
import proofs.«174661_j30812095381967_1_alg».proof.Proof.IdealLeft

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves, by its case -/

theorem first_of_mod (t : Fin cfg0.N) (h0 : t.val % 8 = 0) : isFirst (grid0.coords t) := (isFirst_iff t).mpr h0
theorem notFirst_of_mod (t : Fin cfg0.N) (h0 : ¬t.val % 8 = 0) : ¬isFirst (grid0.coords t) := fun h => h0 ((isFirst_iff t).mp h)
theorem last_of_mod (t : Fin cfg0.N) (h1 : t.val % 8 = 7) : isLast (grid0.coords t) := (isLast_iff t).mpr h1
theorem notLast_of_mod (t : Fin cfg0.N) (h1 : ¬t.val % 8 = 7) : ¬isLast (grid0.coords t) := fun h => h1 ((isLast_iff t).mp h)
theorem notLast_of_first (t : Fin cfg0.N) (h0 : t.val % 8 = 0) : ¬isLast (grid0.coords t) :=
  notLast_of_mod t (by omega)

/-- After a first column block: both accumulators from the point's blocks alone; the output block is not stored
    (the third component is a placeholder that nothing reads). -/
def leftFirst (c : Dev nD) (t : Fin cfg0.N) (h0 : t.val % 8 = 0) : Vec F S1024x256 .f32 × Vec F S1024x1 .f32 × Vec F S1024x256 .f32 :=
  (accFirst c (grid0.coords t) (ms0 t) (hs0 t) (ms1 t) (hs1 t) (ms2 t) (hs2 t) (ms3 t) (hs3 t) (ms4 t) (hs4 t) accM (Memref.isWhole_whole _) degM (Memref.isWhole_whole _) (first_of_mod t h0) (notLast_of_first t h0) (iblk m c 0 t) (iblk m c 1 t),
   degFirst c (grid0.coords t) (ms0 t) (hs0 t) (ms1 t) (hs1 t) (ms2 t) (hs2 t) (ms3 t) (hs3 t) (ms4 t) (hs4 t) accM (Memref.isWhole_whole _) degM (Memref.isWhole_whole _) (first_of_mod t h0) (notLast_of_first t h0) (iblk m c 0 t) (iblk m c 1 t),
   outV.read (Elt F) outV.junk)

/-- After a middle column block, from what the point before left in the accumulators. -/
def leftMiddle (c : Dev nD) (t : Fin cfg0.N) (h0 : ¬t.val % 8 = 0) (h1 : ¬t.val % 8 = 7)
    (xa : Vec F S1024x256 .f32) (xd : Vec F S1024x1 .f32) : Vec F S1024x256 .f32 × Vec F S1024x1 .f32 × Vec F S1024x256 .f32 :=
  (accMiddle c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (notLast_of_mod t h1) (iblk m c 0 t) (iblk m c 1 t) xa xd,
   degMiddle c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (notLast_of_mod t h1) (iblk m c 0 t) (iblk m c 1 t) xa xd,
   outV.read (Elt F) outV.junk)

/-- After a last column block, from what the point before left in the accumulators: the output block too. -/
def leftLast (c : Dev nD) (t : Fin cfg0.N) (h0 : ¬t.val % 8 = 0) (h1 : t.val % 8 = 7)
    (xa : Vec F S1024x256 .f32) (xd : Vec F S1024x1 .f32) : Vec F S1024x256 .f32 × Vec F S1024x1 .f32 × Vec F S1024x256 .f32 :=
  (accLast c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (last_of_mod t h1) (iblk m c 0 t) (iblk m c 1 t) (iblk m c 2 t) (iblk m c 3 t) xa xd,
   degLast c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (last_of_mod t h1) (iblk m c 0 t) (iblk m c 1 t) (iblk m c 2 t) (iblk m c 3 t) xa xd,
   outLast c (grid0.coords t) (ms0 t) (hs0 t) (ms1 t) (hs1 t) (ms2 t) (hs2 t) (ms3 t) (hs3 t) (ms4 t) (hs4 t) accM (Memref.isWhole_whole _) degM (Memref.isWhole_whole _) (notFirst_of_mod t h0) (last_of_mod t h1) (iblk m c 0 t) (iblk m c 1 t) (iblk m c 2 t) (iblk m c 3 t) xa xd)

/-! ## The accumulation -/

/-- What the neighbour accumulator, the row-weight accumulator and the output window's buffer hold after the body at
    position `n`: the case of `n`, a middle or last column block run from what position `n - 1` left. -/
def carried (c : Dev nD) : (n : ℕ) → n < cfg0.N → Vec F S1024x256 .f32 × Vec F S1024x1 .f32 × Vec F S1024x256 .f32
  | 0, hn => leftFirst m c ⟨0, hn⟩ (Nat.zero_mod _)
  | n + 1, hn =>
    if h0 : (n + 1) % 8 = 0 then leftFirst m c ⟨n + 1, hn⟩ h0
    else if h1 : (n + 1) % 8 = 7 then
      leftLast m c ⟨n + 1, hn⟩ h0 h1 (carried c n (Nat.lt_of_succ_lt hn)).1 (carried c n (Nat.lt_of_succ_lt hn)).2.1
    else
      leftMiddle m c ⟨n + 1, hn⟩ h0 h1 (carried c n (Nat.lt_of_succ_lt hn)).1 (carried c n (Nat.lt_of_succ_lt hn)).2.1

theorem carried_first (c : Dev nD) (t : Fin cfg0.N) (h0 : t.val % 8 = 0) :
    carried m c t.val t.isLt = leftFirst m c t h0 := by
  obtain ⟨n, hn⟩ := t
  cases n with
  | zero => exact rfl
  | succ n => exact (dif_pos h0).trans rfl

theorem carried_middle (c : Dev nD) (t : Fin cfg0.N) (h0 : ¬t.val % 8 = 0) (h1 : ¬t.val % 8 = 7) :
    carried m c t.val t.isLt = leftMiddle m c t h0 h1
      (carried m c (t.val - 1) (Nat.lt_of_le_of_lt (Nat.sub_le _ _) t.isLt)).1
      (carried m c (t.val - 1) (Nat.lt_of_le_of_lt (Nat.sub_le _ _) t.isLt)).2.1 := by
  obtain ⟨n, hn⟩ := t
  cases n with
  | zero => exact (by exfalso; (try dsimp only at h0); exact absurd (Nat.zero_mod _) h0)
  | succ n => exact (dif_neg h0).trans ((dif_neg h1).trans rfl)

theorem carried_last (c : Dev nD) (t : Fin cfg0.N) (h0 : ¬t.val % 8 = 0) (h1 : t.val % 8 = 7) :
    carried m c t.val t.isLt = leftLast m c t h0 h1
      (carried m c (t.val - 1) (Nat.lt_of_le_of_lt (Nat.sub_le _ _) t.isLt)).1
      (carried m c (t.val - 1) (Nat.lt_of_le_of_lt (Nat.sub_le _ _) t.isLt)).2.1 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the accumulators hold anything; afterwards what position `n - 1` left. -/
def PhiS (c : Dev nD) : (n : ℕ) → n ≤ cfg0.N → sProp 𝕄
  | 0, _ => Pipeline.ΦA spec0 c
  | n + 1, hn => iprop(iprop(owns (c : Thread nD τ) accM fullShare ((carried m c n hn).1) ∗ owns (c : Thread nD τ) degM fullShare ((carried m c n hn).2.1)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((carried m c n hn).1) ∗ owns (c : Thread nD τ) degM fullShare ((carried m c n hn).2.1)) ∗ (∃ r, prngReg c r)) := rfl

theorem PhiS_pos (c : Dev nD) (n : ℕ) (h : n ≤ cfg0.N) (hz : n ≠ 0) :
    PhiS m c n h = iprop(iprop(owns (c : Thread nD τ) accM fullShare ((carried m c (n - 1) (by omega)).1) ∗ owns (c : Thread nD τ) degM fullShare ((carried m c (n - 1) (by omega)).2.1)) ∗ (∃ r, prngReg c r)) := by
  cases n with
  | zero => exact absurd rfl hz
  | succ n => rfl

/-! ## The proof data -/

/-- The arrays as the region finds them; after the body each input's buffer at its block and the output's at the
    accumulation's third component; the invariant above; the features' array held at half the share by each of its
    two windows, every other array at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (carried m c t.val t.isLt).2.2
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q0 (c : Dev nD) : (dats m 0 c).q 0 = fullShare := by dsimp only [dats]
theorem q1 (c : Dev nD) : (dats m 0 c).q 1 = fullShare.left := by dsimp only [dats]
theorem q2 (c : Dev nD) : (dats m 0 c).q 2 = fullShare.right := by dsimp only [dats]
theorem q3 (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (carried m c t.val t.isLt).2.2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body's obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' buffers hold their blocks; the point's position in its row block says which
    case it is; the invariant hands the body the accumulators at what the point before left (at anything before the
    very first point, and the first column block needs nothing of them) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 128 := lt_of_lt_of_eq t.isLt (show cfg0.N = 128 from N_0)
  by_cases h0 : t.val % 8 = 0
  · have hnl : ¬isLast (grid0.coords t) := notLast_of_first t h0
    rw [Dat.leavesExact_idle (dats m 0 c) 4 t (idle4 t hnl) (noFlush4 t hnl)]
    rw [carried_first m c t h0]
    unfold leftFirst accFirst degFirst; (try dsimp only)
    by_cases hz : t.val = 0
    · rw [PhiS_castSucc m c t, PhiS_zero m c _ _ hz, PhiA_eq]
      iintro ⟨⟨⟨HA, HD⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ (first_of_mod t h0) hnl (iblk m c 0 t) (iblk m c 1 t)).2.2 _ _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccFirst c _ _ _ _ _ _ _ _ _ _ _ _ _ _ _ _ _ _ _)
          · unfold owns; iexists _; isplitr
            swap; · iexact HD
            ipureintro; exact View.read_writes_of_cover _ _ _ _ _ (coverDegFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HA, HD⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ (first_of_mod t h0) hnl (iblk m c 0 t) (iblk m c 1 t)).2.2 _ _ _ Set.univ _)
      isplitl [H0]; · iexact H0
      isplitl [H1]; · iexact H1
      isplitl [H2]; · iexact H2
      isplitl [H3]; · iexact H3
      isplitl [H4]; · iexact H4
      isplitl [HA]; · iexists _; iexact HA
      isplitl [HD]; · iexists _; iexact HD
      iintro ⟨H0, H1, H2, H3, H4, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccFirst c _ _ _ _ _ _ _ _ _ _ _ _ _ _ _ _ _ _ _)
          · unfold owns; iexists _; isplitr
            swap; · iexact HD
            ipureintro; exact View.read_writes_of_cover _ _ _ _ _ (coverDegFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · have hl : isLast (grid0.coords t) := last_of_mod t h1
      rw [show (dats m 0 c).leavesExact 4 t = owns (c : Thread nD τ) (ms4 t) fullShare ((dats m 0 c).after 4 t) from by
        unfold Dat.leavesExact; rw [live4 t hl], after4]
      rw [carried_last m c t h0 h1]
      unfold leftLast accLast degLast outLast; (try dsimp only)
      rw [PhiS_castSucc m c t, PhiS_pos m c _ _ hz]
      iintro ⟨⟨⟨HA, HD⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (notFirst_of_mod t h0) hl (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HA]; · iexact HA
      isplitl [HD]; · iexact HD
      iintro ⟨H0, H1, H2, H3, ⟨%e4, H4⟩, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccLast c _ _ _ _ _ _ _ _ _ _ _ _ _ _ _ _ _ _ _ _ _ _ _)
          · unfold owns; iexists _; isplitr
            swap; · iexact HD
            ipureintro; exact View.read_writes_of_cover _ _ _ _ _ (coverDegLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutLast c _ _ _ _ _ _ _ _ _ _ _ _ _ _ _ _ _ _ _ _ _ _ _)
    · have hnl : ¬isLast (grid0.coords t) := notLast_of_mod t h1
      rw [Dat.leavesExact_idle (dats m 0 c) 4 t (idle4 t hnl) (noFlush4 t hnl)]
      rw [carried_middle m c t h0 h1]
      unfold leftMiddle accMiddle degMiddle; (try dsimp only)
      rw [PhiS_castSucc m c t, PhiS_pos m c _ _ hz]
      iintro ⟨⟨⟨HA, HD⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ _ _ (notFirst_of_mod t h0) hnl (iblk m c 0 t) (iblk m c 1 t) _ _).2.2 _ _ _ Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      iintro ⟨H0, H1, H2, H3, H4, ⟨%ea, HA⟩, ⟨%ed, HD⟩⟩
      isplitl [HA HD Hg]
      · isplitl [HA HD]
        · isplitl [HA]
          · unfold owns; iexists _; isplitr
            swap; · iexact HA
            ipureintro; exact View.read_writes_of_cover _ _ _ _ _ (coverAccMiddle c _ _ _ _ _ _ _ _ _ _ _ _ _ _ _ _ _ _ _ _ _)
          · unfold owns; iexists _; isplitr
            swap; · iexact HD
            ipureintro; exact View.read_writes_of_cover _ _ _ _ _ (coverDegMiddle c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HA, HD⟩, Hg⟩
  isplitl [HA HD]
  · isplitl [HA]
    · iexists _; iexact HA
    · iexists _; iexact HD
  iexact Hg

end Cert.KernelIdeal.Hand

end
-- ==== Proof.IdealLaunch.lean ====
/-
  The launch of the region when two of its windows read one array.

  The region's five windows stand on four buffers: the adjacency, the features (read through two windows, one
  by column blocks of the adjacency's columns and one by row blocks), the transposed weight, and the output.
  Each buffer is held whole when the region is entered; the features' buffer is dealt to its two windows in
  halves of the full share, and each other window holds its buffer whole.  With that split the launch theorem
  for windows that may share an array gives the run: every weakly fair execution ends, each window's array at
  the contents the proof data computes, and the weight — which bypasses the region — as it was.
-/
import proofs.«174661_j30812095381967_1_alg».proof.Proof.IdealEntry
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The four buffers behind the five windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_v0) ↦{fullShare} W main_v0) ∗ (((c : Thread nD τ).loc main_v1) ↦{fullShare} W main_v1)) := by
  unfold Pipeline.arrBufs
  exact bigSep_eq_bigSepL_of_eq [main_arg1, main_arg0, main_v0, main_v1] (by decide) (by decide) _

/-- The buffers behind the arrays, the features' buffer dealt in halves to the two windows that read it. -/
theorem split_arrays {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have s0 : dat.share 0 = fullShare := by unfold Dat.share; exact hq0
  have s1 : dat.share 1 = fullShare.left := by unfold Dat.share; exact hq1
  have s2 : dat.share 2 = fullShare.right := by unfold Dat.share; exact hq2
  have s3 : dat.share 3 = fullShare := by unfold Dat.share; exact hq3
  have s4 : dat.share 4 = fullShare := by unfold Dat.share; rfl
  rw [arrBufs0_eq]
  unfold Dat.arrays
  rw [bigSep_W0]
  simp only [View.set_whole]
  rw [s0, s1, s2, s3, s4, show dat.arrAt 0 0 = V m c main_arg1 from hA 0, show dat.arrAt 1 0 = V m c main_arg0 from hA 1,
    show dat.arrAt 2 0 = V m c main_arg0 from hA 2, show dat.arrAt 3 0 = V m c main_v0 from hA 3,
    show dat.arrAt 4 0 = V m c main_v1 from hA 4]
  iintro ⟨H1, H0, Hv0, Hv1⟩
  ihave H0 := (pointsTo_share (PosShare.mem_left_op_right fullShare)).1 $$ H0
  icases H0 with ⟨H0l, H0r⟩
  isplitl [H1]; · iexact H1
  isplitl [H0l]; · iexact H0l
  isplitl [H0r]; · iexact H0r
  isplitl [Hv0]; · iexact Hv0
  iexact Hv1

/-! ## The run -/

/-- The weight's buffer bypasses the region: held whole throughout, the memory holds its entry contents at the end. -/
theorem read_weight (c : Dev nD) (s' : Phys nD τ sig (Elt F)) :
    iprop((∃ r, prngReg c r) ∗ Pipeline.unscopedRest (Ix := Unit) (Name := ℕ) (U := UR sig nD τ) (Lvl := ℕ) spec0 c (V m c) ∗ SI s')
      ⊢ (|={Set.univ}=> iprop(⌜s'.mem.mem ((c.tc : Thread nD τ).loc main_arg2) = V m c main_arg2⌝ ∗ SI s') : sProp 𝕄) := by
  unfold Pipeline.unscopedRest
  iintro ⟨-, HU, HSI⟩
  imodintro
  ihave H := (pointsTo_read_all (Pipeline.restRefs sig spec0) (fun b => (c.tc : Thread nD τ).loc b) (V m c) s') $$ [HU HSI]
  · isplitl [HU] <;> iassumption
  icases H with ⟨%h, HSI⟩
  isplitr
  · ipureintro
    exact h main_arg2 (Pipeline.mem_restRefs_of main_arg2 rfl (by decide))
  · iexact HSI

/-- The run: every weakly fair execution ends with each window's array at the proof data's final contents and the
    weight unchanged. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare) (hq1 : ∀ c, (dats 0 c).q 1 = fullShare.left) (hq2 : ∀ c, (dats 0 c).q 2 = fullShare.right) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem (((cfgs 0).spec w).arr.view.loc (c.tc : Thread nD τ)) = (dats 0 c).arrAt w (cfgs 0).N)
      ∧ r.2.mem ((c.tc : Thread nD τ).loc main_arg2) = V m c main_arg2) := by
  classical
  exact Pipeline.θ_run_region_pf (fun p => (cfgs p).toPCfg) (fun p => (cfgs p).toPCfg_adm) dats () cellOf_inj 0 winFacts₀0
    (Pipeline.OwnSemFacts.none _) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => split_arrays m (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => s.mem ((c.tc : Thread nD τ).loc main_arg2) = V m c main_arg2)
    (hY := fun c s' => read_weight m c s')
    (hQ := fun s h c => ⟨(h c).1, (h c).2.2⟩)

end Cert.KernelIdeal.Hand

end
-- ==== Proof.IdealFrame.lean ====
/-
  The run of the whole program and its frame.

  With the proof data of the accumulation, the body's obligation at every point and the launch that deals
  the features' array to its two windows, every weakly fair execution of the program ends with each window's
  array at what the proof data computes — an input array at its contents at the region's entry, which for the
  three arguments are the launch contents, since the transposition before the region writes only its own
  result — and with the weight, which no window stages, untouched.
-/
import proofs.«174661_j30812095381967_1_alg».proof.Proof.IdealCarried
import proofs.«174661_j30812095381967_1_alg».proof.Proof.IdealLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: each window's array at the proof data's final contents, the weight unchanged. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ r.2.mem ((c.tc : Thread nD τ).loc main_arg2) = V m c main_arg2) :=
  run_shared m ρ (dats m) (fun c => (body_obligation m c).loose) (q0 m) (q1 m) (q2 m) (q3 m) (fun _ _ => rfl) (A_eq m)
    (hin m) (hout m)

/-- The frame: the program runs to the end and its three arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c))),
       ((h c).2).trans (V_main_arg2 m c)⟩)
    (run_main m ρ)

end Cert.KernelIdeal.Hand

end
-- ==== Proof.IdealPieces.lean ====
/-
  What the body leaves behind is what its stores say.

  Every store of the body writes a whole buffer, so after a run a buffer holds the value of its last store,
  and a load that follows a store of the same run reads that store's value.  Read this way, the buffers after
  a first, a middle and a last column block are the body's stored values applied to the blocks the body
  loaded: at a first column block the accumulators are cleared and then added to, so they end at the sum onto
  the cleared value; at a middle one they end at the sum onto what they held; at a last one the output block
  is the final projection of the two accumulators as they stand after that point's own additions.
-/
import proofs.«174661_j30812095381967_1_alg».proof.Proof.IdealLeft
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every load and store of the body starts at the origin of its buffer. -/
theorem offsetZero2 : (![0, 0] : Fin 2 → Nat) = fun _ => 0 := funext fun a => by fin_cases a <;> rfl

/-! ## After a first column block -/

/-- The neighbour accumulator is cleared, read back, and the block product added onto the cleared value. -/
theorem accFirst_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) :
    accFirst c i arg2 harg2 arg3 harg3 arg4 harg4 arg5 harg5 arg6 harg6 arg7 harg7 arg8 harg8 hc0 hc1 x0 x1 = k0_pay3 x0 (k0_pay1 (F := F)) x1 := by
  unfold accFirst
  rw [View.read_writes_junk_eq_canon]
  unfold runFirst
  dsimp only
  sl_unfold_words
  rw [View.canon_cons_unit_zero (S := S1024x256) offsetZero2, View.readCov_unit_zero (S := S1024x256) _ offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

/-- The row-weight column is cleared, read back, and the block's row sums added onto the cleared value. -/
theorem degFirst_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : isFirst i) (hc1 : ¬isLast i)
    (x0 : Vec F S1024x2048 .f32) (x1 : Vec F S2048x256 .f32) :
    degFirst c i arg2 harg2 arg3 harg3 arg4 harg4 arg5 harg5 arg6 harg6 arg7 harg7 arg8 harg8 hc0 hc1 x0 x1 = k0_pay4 x0 (k0_pay2 (F := F)) := by
  unfold degFirst
  rw [View.read_writes_junk_eq_canon]
  unfold runFirst
  dsimp only
  sl_unfold_words
  rw [View.canon_cons_unit_zero (S := S1024x1) offsetZero2, View.readCov_unit_zero (S := S1024x1) _ offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

/-! ## After a middle column block -/

/-- The block product is added onto what the neighbour accumulator held. -/
theorem accMiddle_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) :
    accMiddle c i arg2 harg2 arg3 harg3 arg4 harg4 arg5 harg5 arg6 harg6 arg7 harg7 arg8 harg8 hc0 hc1 x0 x1 xa xd = k0_pay3 x0 xa x1 := by
  unfold accMiddle
  rw [View.read_writes_junk_eq_canon]
  unfold runMiddle
  dsimp only
  sl_unfold_words
  rw [View.canon_unit_zero offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

/-- The block's row sums are added onto what the row-weight column held. -/
theorem degMiddle_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : ¬isLast i)
    (x0 : Vec F S1024x2048 .f32) (x1 : Vec F S2048x256 .f32) (xa : Vec F S1024x256 .f32) (xd : Vec F S1024x1 .f32) :
    degMiddle c i arg2 harg2 arg3 harg3 arg4 harg4 arg5 harg5 arg6 harg6 arg7 harg7 arg8 harg8 hc0 hc1 x0 x1 xa xd = k0_pay4 x0 xd := by
  unfold degMiddle
  rw [View.read_writes_junk_eq_canon]
  unfold runMiddle
  dsimp only
  sl_unfold_words
  rw [View.canon_unit_zero offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

/-! ## After a last column block -/

/-- The neighbour accumulator receives the block product as at a middle column block. -/
theorem accLast_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) :
    accLast c i arg2 harg2 arg3 harg3 arg4 harg4 arg5 harg5 arg6 harg6 arg7 harg7 arg8 harg8 hc0 hc1 x0 x1 x2 x3 xa xd = k0_pay3 x0 xa x1 := by
  unfold accLast
  rw [View.read_writes_junk_eq_canon]
  unfold runLast
  dsimp only
  sl_unfold_words
  rw [View.canon_unit_zero offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

/-- The row-weight column receives the block's row sums as at a middle column block. -/
theorem degLast_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) :
    degLast c i arg2 harg2 arg3 harg3 arg4 harg4 arg5 harg5 arg6 harg6 arg7 harg7 arg8 harg8 hc0 hc1 x0 x1 x2 x3 xa xd = k0_pay4 x0 xd := by
  unfold degLast
  rw [View.read_writes_junk_eq_canon]
  unfold runLast
  dsimp only
  sl_unfold_words
  rw [View.canon_unit_zero offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

/-- The output block is the final projection of the two accumulators read after this point's additions. -/
theorem outLast_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (hc0 : ¬isFirst i) (hc1 : isLast i)
    (x0 : Vec F S1024x2048 .f32) (x1 : Vec F S2048x256 .f32) (x2 : Vec F S1024x256 .f32) (x3 : Vec F S512x256 .f32)
    (xa : Vec F S1024x256 .f32) (xd : Vec F S1024x1 .f32) :
    outLast c i arg2 harg2 arg3 harg3 arg4 harg4 arg5 harg5 arg6 harg6 arg7 harg7 arg8 harg8 hc0 hc1 x0 x1 x2 x3 xa xd = k0_pay5 (k0_pay4 x0 xd) (k0_pay3 x0 xa x1) x2 x3 := by
  unfold outLast
  rw [View.read_writes_junk_eq_canon]
  unfold runLast
  dsimp only
  sl_unfold_words
  rw [View.canon_unit_zero offsetZero2, View.readCov_unit_zero (S := S1024x1) _ offsetZero2,
    View.readCov_unit_zero (S := S1024x256) _ offsetZero2]
  simp only [View.readAt_eq_ld, harg2.read_unread, harg3.read_unread, harg4.read_unread, harg5.read_unread, harg6.read_unread, harg7.read_unread, harg8.read_unread,
    View.ld_unit_zero (S := S1024x2048) offsetZero2, View.ld_unit_zero (S := S2048x256) offsetZero2, View.ld_unit_zero (S := S1024x256) offsetZero2,
    View.ld_unit_zero (S := S1024x1) offsetZero2, View.ld_unit_zero (S := S512x256) offsetZero2]

end Cert.KernelIdeal.Hand

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.IdealPayloads.lean ====
/-
  The five values the kernel's body stores, each read at one index over the extended reals.

  At the ideal values a float is an extended real and every operation is exact, so each stored value is a plain
  formula in the values the body has loaded: the two clearing stores write zero; the neighbour accumulator
  receives its old value plus the block product of the adjacency block with the feature block, a sum over the
  block's 2048 columns; the row-weight column receives its old value plus the block's row sum; and the final
  store writes the product of the joined row — the node's own 256 features followed by the 256 accumulated
  sums each divided by the row weight plus one — with the weight block, a sum over the 512 joined entries.
-/
import proofs.«174661_j30812095381967_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«174661_j30812095381967_1_alg».proof.Proof.LibPlainDot
import proofs.«174661_j30812095381967_1_alg».proof.Proof.LibLaneSum
import proofs.«174661_j30812095381967_1_alg».proof.Proof.LibColumn

noncomputable section

open scoped BigOperators

namespace Cert.Sage.Pay

open Idealize.ShloMosaic Idealize.ShloMosaic.ValueIdx Cert.KernelIdeal Cert.KernelIdeal.Gen

/-- The store that clears the neighbour accumulator writes zero everywhere. -/
theorem cleared_block (p : Fin 1024) (d : Fin 256) :
    k0_pay1 (F := Ideal) (ix2 p d) = 0 := by
  unfold k0_pay1
  refine (congrFun (shapeCast_self _ _) (ix2 p d)).trans ?_
  exact Ideal.ofBits_zero_f32

/-- The store that clears the row-weight column writes zero everywhere. -/
theorem cleared_column (p : Fin 1024) :
    k0_pay2 (F := Ideal) (ix2 p (0 : Fin 1)) = 0 := by
  unfold k0_pay2
  refine (congrFun (shapeCast_self _ _) (ix2 p (0 : Fin 1))).trans ?_
  exact Ideal.ofBits_zero_f32

/-- The neighbour accumulator's new value at `(p, d)`: the old value plus row `p` of the adjacency block against
    column `d` of the feature block. -/
theorem block_product (v3 : Vec Ideal S1024x2048 .f32) (v4 : Vec Ideal S1024x256 .f32) (v5 : Vec Ideal S2048x256 .f32)
    (p : Fin 1024) (d : Fin 256) :
    k0_pay3 (F := Ideal) v3 v4 v5 (ix2 p d) = v4 (ix2 p d) + ∑ j : Fin 2048, v3 (ix2 p j) * v5 (ix2 j d) := by
  unfold k0_pay3
  refine (congrFun (shapeCast_self _ _) (ix2 p d)).trans ?_
  refine congrArg (fun x : EReal => v4 (ix2 p d) + x) ?_
  exact Cert.PlainDot.matmul_zero_apply _ rfl none v3 v5 p d

/-- The row-weight column's new value at row `p`: the old value plus the sum of row `p` of the adjacency block. -/
theorem block_rowsum (v3 : Vec Ideal S1024x2048 .f32) (v11 : Vec Ideal S1024x1 .f32) (p : Fin 1024) :
    k0_pay4 (F := Ideal) v3 v11 (ix2 p (0 : Fin 1)) = v11 (ix2 p (0 : Fin 1)) + ∑ j : Fin 2048, v3 (ix2 p j) := by
  unfold k0_pay4
  refine (congrFun (shapeCast_self _ _) (ix2 p (0 : Fin 1))).trans ?_
  refine congrArg (fun x : EReal => v11 (ix2 p (0 : Fin 1)) + x) ?_
  refine (Cert.GraphConv.Column.shapeCast_a_a1_apply _ _ p (0 : Fin 1)).trans ?_
  exact Cert.LaneSum.sum_last2 v3 _ _ _ _ p

/-- The accumulated sums divided by the row weight plus one, at `(p, d)`: the divisor is the column's entry of
    row `p` plus the word of one, the same along the whole row. -/
theorem quotient_apply (v21 : FVec Ideal S1024x1 .f32) (v24 : FVec Ideal S1024x256 .f32)
    (h : S1024x1.Broadcasts S1024x256) (p : Fin 1024) (d : Fin 256) :
    divf v24 (broadcastTo S1024x256 (addf v21 (broadcast S1024x1 (Scalar.ofBits (F := Ideal) .f32 0x3F800000#32))) h) (ix2 p d)
      = Ideal.div (v24 (ix2 p d)) (v21 (ix2 p (0 : Fin 1)) + Ideal.ofBits .f32 0x3F800000#32) := by
  refine congrArg (fun x : EReal => Ideal.div (v24 (ix2 p d)) x) ?_
  exact Cert.GraphConv.Column.broadcastTo_a1_ab_apply _ h p d

/-- Two blocks of width 256 laid side by side, read at `(p, j)`: the first block at column `j` while `j < 256`, the
    second at column `j - 256` from there on. -/
theorem joined_apply (x₁ x₂ : FVec Ideal S1024x256 .f32)
    (h : Shape.Concatenates [S1024x256, S1024x256] S1024x512 1) (p : Fin 1024) (j : Fin 512) :
    concatenate S1024x512 1 [⟨S1024x256, x₁⟩, ⟨S1024x256, x₂⟩] h (ix2 p j)
      = if hj : j.val < 256 then x₁ (ix2 p ⟨j.val, hj⟩)
          else x₂ (ix2 p ⟨j.val - 256, by have := j.isLt; omega⟩) := by
  by_cases hj : j.val < 256
  · rw [dif_pos hj]
    refine concatenate_pair_apply_left 1 x₁ x₂ h (ix2 p j) rfl (ix2 p ⟨j.val, hj⟩) fun b => ?_
    match b with
    | ⟨0, _⟩ => rfl
    | ⟨1, _⟩ => rfl
  · rw [dif_neg hj]
    refine concatenate_pair_apply_right 1 x₁ x₂ h (ix2 p j) rfl rfl
      (ix2 p ⟨j.val - 256, by have := j.isLt; omega⟩) (fun b hb => ?_) ?_
    · match b with
      | ⟨0, _⟩ => rfl
      | ⟨1, _⟩ => exact absurd rfl hb
    · show j.val - 256 + 256 = j.val
      omega

/-- The final store at `(p, c)`: the joined row `p` — own features, then the normalised sums — against column `c`
    of the weight block. -/
theorem projected (v21 : Vec Ideal S1024x1 .f32) (v24 v27 : Vec Ideal S1024x256 .f32) (v29 : Vec Ideal S512x256 .f32)
    (p : Fin 1024) (c : Fin 256) :
    k0_pay5 (F := Ideal) v21 v24 v27 v29 (ix2 p c)
      = ∑ j : Fin 512, (if h : j.val < 256 then v27 (ix2 p ⟨j.val, h⟩)
          else Ideal.div (v24 (ix2 p ⟨j.val - 256, by have := j.isLt; omega⟩)) (v21 (ix2 p (0 : Fin 1)) + Ideal.ofBits .f32 0x3F800000#32)) * v29 (ix2 j c) := by
  unfold k0_pay5
  refine (Cert.PlainDot.matmul_zero_apply _ rfl none _ _ p c).trans ?_
  refine Finset.sum_congr rfl fun j _ => ?_
  refine congrArg₂ (fun x y : EReal => x * y) ?_ (congrFun (shapeCast_self v29 _) (ix2 j c))
  refine (joined_apply v27 _ _ p j).trans ?_
  by_cases hj : j.val < 256
  · rw [dif_pos hj, dif_pos hj]
  · rw [dif_neg hj, dif_neg hj]
    exact quotient_apply v21 v24 _ p _

end Cert.Sage.Pay

end
-- ==== Proof.LibAccTile.lean ====
/-
  One law of an accumulator that is cleared tile by tile, in an additive commutative monoid. Points are numbered
  tile by tile, `S` consecutive points per tile. At the first point of a tile the accumulator is cleared and
  receives the point's term; at every other point it adds the point's term to what the point before left. Then at
  the last point of tile `m` it holds the sum of the tile's `S` terms.
-/
import Idealize.ShloMosaic.PureOps.Ideal
import Mathlib.Algebra.BigOperators.Fin

open scoped BigOperators

namespace Cert.BlockSums

/-- Within tile `m`, after the point at position `k` the accumulator holds the tile's first `k + 1` terms. -/
theorem acc_tile_partial {M : Type*} [AddCommMonoid M] (S : ℕ) (N : ℕ) (p acc : ℕ → M)
    (h : ∀ n, n < N → acc n = (if n % S = 0 then 0 else acc (n - 1)) + p n) (m : ℕ) :
    ∀ k, k < S → m * S + k < N → acc (m * S + k) = ∑ j ∈ Finset.range (k + 1), p (m * S + j) := by
  have hmod : ∀ k, k < S → (m * S + k) % S = k := fun k hk => by
    rw [Nat.add_comm, Nat.add_mul_mod_self_right, Nat.mod_eq_of_lt hk]
  intro k
  induction k with
  | zero =>
    intro hk hN
    rw [h _ hN, if_pos (hmod 0 hk), zero_add, Finset.sum_range_one]
  | succ k ih =>
    intro hk hN
    have hne : ¬(m * S + (k + 1)) % S = 0 := by rw [hmod (k + 1) hk]; exact Nat.succ_ne_zero k
    have hprev : m * S + (k + 1) - 1 = m * S + k := rfl
    rw [h _ hN, if_neg hne, hprev, Finset.sum_range_succ _ (k + 1),
      ih (Nat.lt_of_succ_lt hk) (lt_trans (Nat.add_lt_add_left (Nat.lt_succ_self k) (m * S)) hN)]

/-- at the last point of tile `m` the accumulator holds the sum of the tile's `S` terms -/
theorem acc_tile {M : Type*} [AddCommMonoid M] (S : ℕ) (hS : 0 < S) (N : ℕ) (p acc : ℕ → M)
    (h : ∀ n, n < N → acc n = (if n % S = 0 then 0 else acc (n - 1)) + p n)
    (m : ℕ) (hm : m * S + (S - 1) < N) :
    acc (m * S + (S - 1)) = ∑ k : Fin S, p (m * S + k.val) := by
  rw [acc_tile_partial S N p acc h m (S - 1) (Nat.sub_lt hS Nat.one_pos) hm, Nat.sub_add_cancel hS, Finset.sum_range]

/-- tiles of 8 points -/
theorem acc_tile_8 {M : Type*} [AddCommMonoid M] (N : ℕ) (p acc : ℕ → M)
    (h : ∀ n, n < N → acc n = (if n % 8 = 0 then 0 else acc (n - 1)) + p n)
    (m : ℕ) (hm : m * 8 + 7 < N) :
    acc (m * 8 + 7) = ∑ k : Fin 8, p (m * 8 + k.val) :=
  acc_tile 8 (by decide) N p acc h m hm

/-- tiles of 16 points -/
theorem acc_tile_16 {M : Type*} [AddCommMonoid M] (N : ℕ) (p acc : ℕ → M)
    (h : ∀ n, n < N → acc n = (if n % 16 = 0 then 0 else acc (n - 1)) + p n)
    (m : ℕ) (hm : m * 16 + 15 < N) :
    acc (m * 16 + 15) = ∑ k : Fin 16, p (m * 16 + k.val) :=
  acc_tile 16 (by decide) N p acc h m hm

end Cert.BlockSums
-- ==== Proof.IdealAccum.lean ====
/-
  The accumulators as sums over the column blocks, on the extended reals.

  Fix a row `p` of a row block.  Entry `(p, d)` of the neighbour accumulator after a point is what it held
  before (zero at a first column block, where it was just cleared) plus that point's block product, the sum
  over the block's 2048 columns of adjacency times feature; the row-weight accumulator likewise with the
  block's row sum.  So at the last of the eight column blocks of a row block each holds the sum of the eight
  block terms — the sums are sums in a commutative monoid, so no finiteness is needed.  The output block
  stored there is the product of the joined row (the row's own features, then the accumulated sums divided by
  the accumulated row weight plus one) with the weight block.
-/
import proofs.«174661_j30812095381967_1_alg».proof.Proof.IdealCarried
import proofs.«174661_j30812095381967_1_alg».proof.Proof.IdealPieces
import proofs.«174661_j30812095381967_1_alg».proof.Proof.IdealPayloads
import proofs.«174661_j30812095381967_1_alg».proof.Proof.LibAccTile

set_option maxRecDepth 16384

noncomputable section

open scoped BigOperators

namespace Cert.Sage.Kernel

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-! ## The blocks at a point, as arrays of extended reals -/

abbrev adjBlk (c : Dev nD) (t : Fin cfg0.N) : Vec Ideal S1024x2048 .f32 := iblk m c 0 t
abbrev featBlk (c : Dev nD) (t : Fin cfg0.N) : Vec Ideal S2048x256 .f32 := iblk m c 1 t
abbrev selfBlk (c : Dev nD) (t : Fin cfg0.N) : Vec Ideal S1024x256 .f32 := iblk m c 2 t
abbrev weightBlk (c : Dev nD) (t : Fin cfg0.N) : Vec Ideal S512x256 .f32 := iblk m c 3 t

theorem lt_N {n : ℕ} (hn : n < 128) : n < cfg0.N := lt_of_lt_of_eq hn N_0.symm

/-! ## The accumulators entry by entry, position by position -/

/-- Entry `(p, d)` of the neighbour accumulator after position `n`. -/
def accAt (c : Dev nD) (p : Fin 1024) (d : Fin 256) (n : ℕ) : EReal :=
  if h : n < cfg0.N then (carried m c n h).1 (ix2 p d) else 0
/-- Row `p` of the row-weight accumulator after position `n`. -/
def degAt (c : Dev nD) (p : Fin 1024) (n : ℕ) : EReal :=
  if h : n < cfg0.N then (carried m c n h).2.1 (ix2 p (0 : Fin 1)) else 0
/-- Position `n`'s block product at `(p, d)`. -/
def prodAt (c : Dev nD) (p : Fin 1024) (d : Fin 256) (n : ℕ) : EReal :=
  if h : n < cfg0.N then ∑ j : Fin 2048, adjBlk m c ⟨n, h⟩ (ix2 p j) * featBlk m c ⟨n, h⟩ (ix2 j d) else 0
/-- Position `n`'s block row sum at row `p`. -/
def rowsumAt (c : Dev nD) (p : Fin 1024) (n : ℕ) : EReal :=
  if h : n < cfg0.N then ∑ j : Fin 2048, adjBlk m c ⟨n, h⟩ (ix2 p j) else 0

/-- One point's step of the neighbour accumulator. -/
theorem acc_step (c : Dev nD) (p : Fin 1024) (d : Fin 256) (n : ℕ) (hn : n < 128) :
    accAt m c p d n = (if n % 8 = 0 then 0 else accAt m c p d (n - 1)) + prodAt m c p d n := by
  have hN : n < cfg0.N := lt_N hn
  have hN' : n - 1 < cfg0.N := lt_N (by omega)
  unfold accAt prodAt
  rw [dif_pos hN, dif_pos hN, dif_pos hN']
  by_cases h0 : n % 8 = 0
  · rw [if_pos h0]
    have e : carried m c n hN = leftFirst m c ⟨n, hN⟩ h0 := carried_first m c ⟨n, hN⟩ h0
    rw [e]; unfold leftFirst; dsimp only
    rw [accFirst_eq]
    refine (Cert.Sage.Pay.block_product (adjBlk m c ⟨n, hN⟩) (k0_pay1 (F := Ideal)) (featBlk m c ⟨n, hN⟩) p d).trans ?_
    rw [Cert.Sage.Pay.cleared_block]
  · rw [if_neg h0]
    by_cases h1 : n % 8 = 7
    · have e : carried m c n hN = leftLast m c ⟨n, hN⟩ h0 h1 (carried m c (n - 1) hN').1 (carried m c (n - 1) hN').2.1 :=
        carried_last m c ⟨n, hN⟩ h0 h1
      rw [e]; unfold leftLast; dsimp only
      rw [accLast_eq]
      exact Cert.Sage.Pay.block_product (adjBlk m c ⟨n, hN⟩) (carried m c (n - 1) hN').1 (featBlk m c ⟨n, hN⟩) p d
    · have e : carried m c n hN = leftMiddle m c ⟨n, hN⟩ h0 h1 (carried m c (n - 1) hN').1 (carried m c (n - 1) hN').2.1 :=
        carried_middle m c ⟨n, hN⟩ h0 h1
      rw [e]; unfold leftMiddle; dsimp only
      rw [accMiddle_eq]
      exact Cert.Sage.Pay.block_product (adjBlk m c ⟨n, hN⟩) (carried m c (n - 1) hN').1 (featBlk m c ⟨n, hN⟩) p d

/-- One point's step of the row-weight accumulator. -/
theorem deg_step (c : Dev nD) (p : Fin 1024) (n : ℕ) (hn : n < 128) :
    degAt m c p n = (if n % 8 = 0 then 0 else degAt m c p (n - 1)) + rowsumAt m c p n := by
  have hN : n < cfg0.N := lt_N hn
  have hN' : n - 1 < cfg0.N := lt_N (by omega)
  unfold degAt rowsumAt
  rw [dif_pos hN, dif_pos hN, dif_pos hN']
  by_cases h0 : n % 8 = 0
  · rw [if_pos h0]
    have e : carried m c n hN = leftFirst m c ⟨n, hN⟩ h0 := carried_first m c ⟨n, hN⟩ h0
    rw [e]; unfold leftFirst; dsimp only
    rw [degFirst_eq]
    refine (Cert.Sage.Pay.block_rowsum (adjBlk m c ⟨n, hN⟩) (k0_pay2 (F := Ideal)) p).trans ?_
    rw [Cert.Sage.Pay.cleared_column]
  · rw [if_neg h0]
    by_cases h1 : n % 8 = 7
    · have e : carried m c n hN = leftLast m c ⟨n, hN⟩ h0 h1 (carried m c (n - 1) hN').1 (carried m c (n - 1) hN').2.1 :=
        carried_last m c ⟨n, hN⟩ h0 h1
      rw [e]; unfold leftLast; dsimp only
      rw [degLast_eq]
      exact Cert.Sage.Pay.block_rowsum (adjBlk m c ⟨n, hN⟩) (carried m c (n - 1) hN').2.1 p
    · have e : carried m c n hN = leftMiddle m c ⟨n, hN⟩ h0 h1 (carried m c (n - 1) hN').1 (carried m c (n - 1) hN').2.1 :=
        carried_middle m c ⟨n, hN⟩ h0 h1
      rw [e]; unfold leftMiddle; dsimp only
      rw [degMiddle_eq]
      exact Cert.Sage.Pay.block_rowsum (adjBlk m c ⟨n, hN⟩) (carried m c (n - 1) hN').2.1 p

/-- At the last column block of row block `i` the neighbour accumulator holds the sum of the eight block products. -/
theorem acc_rowblock (c : Dev nD) (p : Fin 1024) (d : Fin 256) (i : Fin 16) :
    accAt m c p d (i.val * 8 + 7) = ∑ k : Fin 8, prodAt m c p d (i.val * 8 + k.val) :=
  Cert.BlockSums.acc_tile_8 128 (prodAt m c p d) (accAt m c p d) (fun n hn => acc_step m c p d n hn) i.val
    (by have := i.isLt; omega)

/-- And the row-weight accumulator the sum of the eight block row sums. -/
theorem deg_rowblock (c : Dev nD) (p : Fin 1024) (i : Fin 16) :
    degAt m c p (i.val * 8 + 7) = ∑ k : Fin 8, rowsumAt m c p (i.val * 8 + k.val) :=
  Cert.BlockSums.acc_tile_8 128 (rowsumAt m c p) (degAt m c p) (fun n hn => deg_step m c p n hn) i.val
    (by have := i.isLt; omega)

/-! ## The output block at a last column block -/

/-- Entry `(p, k)` of the block stored at a last column block: the joined row against column `k` of the weight block. -/
theorem out_last (c : Dev nD) (t : Fin cfg0.N) (h1 : t.val % 8 = 7) (p : Fin 1024) (k : Fin 256) :
    (carried m c t.val t.isLt).2.2 (ix2 p k)
      = ∑ j : Fin 512, (if h : j.val < 256 then selfBlk m c t (ix2 p ⟨j.val, h⟩)
          else Ideal.div (accAt m c p ⟨j.val - 256, by have := j.isLt; omega⟩ t.val)
            (degAt m c p t.val + Ideal.ofBits .f32 0x3F800000#32)) * weightBlk m c t (ix2 j k) := by
  have h0 : ¬t.val % 8 = 0 := by omega
  unfold accAt degAt
  simp only [dif_pos t.isLt]
  rw [carried_last m c t h0 h1]
  unfold leftLast; dsimp only
  rw [outLast_eq, accLast_eq, degLast_eq]
  exact Cert.Sage.Pay.projected _ _ (selfBlk m c t) (weightBlk m c t) p k

end Cert.Sage.Kernel

end
-- ==== Proof.IdealBlocks.lean ====
/-
  Where each window's block sits in its array.

  The region runs on a 16 × 8 grid: point `t` is row block `t / 8` of the adjacency at column block `t % 8`.
  The adjacency window's block at `t` is rows `t / 8 · 1024 …` and columns `t % 8 · 2048 …` of the adjacency;
  the neighbours' feature window's block is rows `t % 8 · 2048 …` of the features; the row block's own feature
  window's block and the output window's block are rows `t / 8 · 1024 …` of the features and of the output; the
  weight window is the whole transposed weight, which the program prepared before the region by one
  transposition of its third argument.  A block's coordinate along an axis is always the block index times the
  block's extent plus the coordinate inside the block, and the block indices are decided once over the grid.
-/
import proofs.«174661_j30812095381967_1_alg».proof.Proof.IdealEntry
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The windows' block indices at every grid point, decided over the grid. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- The array row of row `p` of row block `t / 8`. -/
def rowOf (t : Fin cfg0.N) (p : Fin 1024) : Fin 16384 :=
  ⟨t.val / 8 * 1024 + p.val, by have := Nat.lt_of_lt_of_eq t.isLt N_0; have := p.isLt; omega⟩

/-- The array column of column `j` of column block `t % 8`. -/
def colOf (t : Fin cfg0.N) (j : Fin 2048) : Fin 16384 :=
  ⟨t.val % 8 * 2048 + j.val, by have := j.isLt; omega⟩

/-- The adjacency block at point `t`, at `(p, j)`: the adjacency at row `rowOf t p`, column `colOf t j`. -/
theorem adjBlock_apply (c : Dev nD) (t : Fin cfg0.N) (p : Fin 1024) (j : Fin 2048) :
    iblk m c 0 t (ix2 p j) = V m c main_arg1 (ix2 (rowOf t p) (colOf t j)) := by
  obtain ⟨e0, e1, -⟩ := idx_facts t
  show V m c main_arg1 (((cfg0.win 0).blk t).view.emb (ix2 p j)) = V m c main_arg1 _
  refine congrArg (V m c main_arg1) (funext fun a => Fin.ext ?_)
  match a with
  | ⟨0, _⟩ =>
    show win0_0.index t (0 : Fin 2) * 1024 + 1 * p.val = t.val / 8 * 1024 + p.val
    rw [e0]; omega
  | ⟨1, _⟩ =>
    show win0_0.index t (1 : Fin 2) * 2048 + 1 * j.val = t.val % 8 * 2048 + j.val
    rw [e1]; omega

/-- The neighbours' feature block at point `t`, at `(j, d)`: the features at row `colOf t j`, column `d`. -/
theorem featBlock_apply (c : Dev nD) (t : Fin cfg0.N) (j : Fin 2048) (d : Fin 256) :
    iblk m c 1 t (ix2 j d) = V m c main_arg0 (ix2 (colOf t j) d) := by
  obtain ⟨-, -, e2, e3, -⟩ := idx_facts t
  show V m c main_arg0 (((cfg0.win 1).blk t).view.emb (ix2 j d)) = V m c main_arg0 _
  refine congrArg (V m c main_arg0) (funext fun a => Fin.ext ?_)
  match a with
  | ⟨0, _⟩ =>
    show win0_1.index t (0 : Fin 2) * 2048 + 1 * j.val = t.val % 8 * 2048 + j.val
    rw [e2]; omega
  | ⟨1, _⟩ =>
    show win0_1.index t (1 : Fin 2) * 256 + 1 * d.val = d.val
    rw [e3]; omega

/-- The row block's own feature block at point `t`, at `(p, d)`: the features at row `rowOf t p`, column `d`. -/
theorem selfBlock_apply (c : Dev nD) (t : Fin cfg0.N) (p : Fin 1024) (d : Fin 256) :
    iblk m c 2 t (ix2 p d) = V m c main_arg0 (ix2 (rowOf t p) d) := by
  obtain ⟨-, -, -, -, e4, e5, -⟩ := idx_facts t
  show V m c main_arg0 (((cfg0.win 2).blk t).view.emb (ix2 p d)) = V m c main_arg0 _
  refine congrArg (V m c main_arg0) (funext fun a => Fin.ext ?_)
  match a with
  | ⟨0, _⟩ =>
    show win0_2.index t (0 : Fin 2) * 1024 + 1 * p.val = t.val / 8 * 1024 + p.val
    rw [e4]; omega
  | ⟨1, _⟩ =>
    show win0_2.index t (1 : Fin 2) * 256 + 1 * d.val = d.val
    rw [e5]; omega

/-- The weight window's block at every point is the whole transposed weight. -/
theorem weightBlock_apply (c : Dev nD) (t : Fin cfg0.N) (j : Fin 512) (k : Fin 256) :
    iblk m c 3 t (ix2 j k) = V m c main_v0 (ix2 j k) := by
  obtain ⟨-, -, -, -, -, -, e6, e7, -⟩ := idx_facts t
  show V m c main_v0 (((cfg0.win 3).blk t).view.emb (ix2 j k)) = V m c main_v0 _
  refine congrArg (V m c main_v0) (funext fun a => Fin.ext ?_)
  match a with
  | ⟨0, _⟩ =>
    show win0_3.index t (0 : Fin 2) * 512 + 1 * j.val = j.val
    rw [e6]; omega
  | ⟨1, _⟩ =>
    show win0_3.index t (1 : Fin 2) * 256 + 1 * k.val = k.val
    rw [e7]; omega

/-- The region finds the weight transposed: entry `(j, k)` is the third argument's entry `(k, j)`. -/
theorem weightT_apply (c : Dev nD) (j : Fin 512) (k : Fin 256) :
    V m c main_v0 (ix2 j k) = m ((c : Thread nD τ).loc main_arg2) (ix2 k j) := by
  have e : (V m c main_v0 : S512x256.Idx → Elt F .f32)
      = transpose S512x256 [1, 0] (m ((c : Thread nD τ).loc main_arg2)) transposes_S256x512_S512x256_1_0 := by
    dsimp only [V, hostOps0]; after_results
  rw [e]
  exact transpose_ix2_apply _ _ j k

/-- An index of the output array lies in the block of point `t` iff its row is in row block `t / 8`. -/
theorem mem_outBlock (t : Fin cfg0.N) (r : Fin 16384) (k : Fin 256) :
    (ix2 r k : S16384x256.Idx) ∈ ((cfg0.win 4).blk t).view.set ↔ t.val / 8 * 1024 ≤ r.val ∧ r.val < t.val / 8 * 1024 + 1024 := by
  show (ix2 r k : S16384x256.Idx) ∈ ((View.whole main_v1).slice (win0_4.rect t)).set ↔ _
  rw [View.set_slice_whole, Rect.mem_set_unit]
  obtain ⟨-, -, -, -, -, -, -, -, e8, e9⟩ := idx_facts t
  constructor
  · intro h
    have h0 : win0_4.index t (0 : Fin 2) * 1024 ≤ r.val ∧ r.val < win0_4.index t (0 : Fin 2) * 1024 + 1024 := h 0
    rw [e8] at h0
    exact h0
  · intro h a
    match a with
    | ⟨0, _⟩ =>
      show win0_4.index t (0 : Fin 2) * 1024 ≤ r.val ∧ r.val < win0_4.index t (0 : Fin 2) * 1024 + 1024
      rw [e8]; exact h
    | ⟨1, _⟩ =>
      show win0_4.index t (1 : Fin 2) * 256 ≤ k.val ∧ k.val < win0_4.index t (1 : Fin 2) * 256 + 256
      rw [e9]; have := k.isLt; omega

/-- The output block of point `t` read at `(p, k)` out of an array: the array at `(rowOf t p, k)`. -/
theorem outBlock_read (G : S16384x256.Idx → Elt F .f32) (t : Fin cfg0.N) (p : Fin 1024) (k : Fin 256) :
    ((cfg0.win 4).blk t).view.read (Elt F) G (ix2 p k) = G (ix2 (rowOf t p) k) := by
  obtain ⟨-, -, -, -, -, -, -, -, e8, e9⟩ := idx_facts t
  show G (((cfg0.win 4).blk t).view.emb (ix2 p k)) = G _
  refine congrArg G (funext fun a => Fin.ext ?_)
  match a with
  | ⟨0, _⟩ =>
    show win0_4.index t (0 : Fin 2) * 1024 + 1 * p.val = t.val / 8 * 1024 + p.val
    rw [e8]; omega
  | ⟨1, _⟩ =>
    show win0_4.index t (1 : Fin 2) * 256 + 1 * k.val = k.val
    rw [e9]; omega

end Cert.KernelIdeal.Hand

end
-- ==== Proof.SageSpec.lean ====
/-
  The function both programs compute, index by index, on the extended reals.

  A graph on 16384 nodes is given by a dense weight matrix `adj` and node features `feat` of width 256.
  Node `r` averages its neighbours' features with the weights of row `r`, normalised by the row's total
  weight plus one; that mean is joined (side by side, features first) to the node's own features, and the
  joined row of width 512 is mapped through the transposed weight `w` (`w` is 256 × 512, so entry `(r, c)`
  contracts the joined row `r` with row `c` of `w`).  Every sum is the plain sum of extended reals — a
  commutative monoid, so the sums may be regrouped freely — and the quotient is the extended-real
  quotient; nothing here needs the entries to be finite.
-/
import Idealize.ShloMosaic.PureOps.Ideal
import Idealize.ShloMosaic.Lib.ValueIdx

noncomputable section

open scoped BigOperators

namespace Cert.Sage

open Idealize.ShloMosaic Idealize.ShloMosaic.ValueIdx

/-- The total weight of row `r`. -/
def rowWeight (adj : FVec Ideal ⟨2, ![16384, 16384]⟩ .f32) (r : Fin 16384) : EReal :=
  ∑ j : Fin 16384, adj (ix2 r j)

/-- The weighted sum of the neighbours' feature `d`, for node `r`. -/
def gathered (feat : FVec Ideal ⟨2, ![16384, 256]⟩ .f32) (adj : FVec Ideal ⟨2, ![16384, 16384]⟩ .f32)
    (r : Fin 16384) (d : Fin 256) : EReal :=
  ∑ j : Fin 16384, adj (ix2 r j) * feat (ix2 j d)

/-- The normalised neighbour mean: the weighted sum over the row weight plus one (the word `0x3F800000`). -/
def neighbour (feat : FVec Ideal ⟨2, ![16384, 256]⟩ .f32) (adj : FVec Ideal ⟨2, ![16384, 16384]⟩ .f32)
    (r : Fin 16384) (d : Fin 256) : EReal :=
  Ideal.div (gathered feat adj r d) (rowWeight adj r + Ideal.ofBits .f32 0x3F800000#32)

/-- The joined row: the node's own 256 features, then its 256 neighbour means. -/
def joined (feat : FVec Ideal ⟨2, ![16384, 256]⟩ .f32) (adj : FVec Ideal ⟨2, ![16384, 16384]⟩ .f32)
    (r : Fin 16384) (j : Fin 512) : EReal :=
  if h : j.val < 256 then feat (ix2 r ⟨j.val, h⟩) else neighbour feat adj r ⟨j.val - 256, by have := j.isLt; omega⟩

/-- Entry `(r, c)` of the result: the joined row `r` against row `c` of `w`. -/
def entry (feat : FVec Ideal ⟨2, ![16384, 256]⟩ .f32) (adj : FVec Ideal ⟨2, ![16384, 16384]⟩ .f32)
    (w : FVec Ideal ⟨2, ![256, 512]⟩ .f32) (r : Fin 16384) (c : Fin 256) : EReal :=
  ∑ j : Fin 512, joined feat adj r j * w (ix2 c j)

/-- The whole result array. -/
def sage (feat : FVec Ideal ⟨2, ![16384, 256]⟩ .f32) (adj : FVec Ideal ⟨2, ![16384, 16384]⟩ .f32)
    (w : FVec Ideal ⟨2, ![256, 512]⟩ .f32) : FVec Ideal ⟨2, ![16384, 256]⟩ .f32 :=
  fun i => entry feat adj w (i 0) (i 1)

theorem sage_ix2 (feat : FVec Ideal ⟨2, ![16384, 256]⟩ .f32) (adj : FVec Ideal ⟨2, ![16384, 16384]⟩ .f32)
    (w : FVec Ideal ⟨2, ![256, 512]⟩ .f32) (r : Fin 16384) (c : Fin 256) :
    sage feat adj w (ix2 r c) = entry feat adj w r c := rfl

end Cert.Sage

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.IdealFinal.lean ====
/-
  From the blocks to the array: the kernel's result is the specification.

  The output array is written back one row block at a time, at the last column block of each row block, and
  the sixteen row blocks tile it.  Entry `(p, k)` of the block written back for row block `i` is the joined
  row of array row `r = 1024 i + p` against row `k` of the weight: the row's own features are the entries of
  the features' block the window on row block `i` holds; the accumulated sums are, by the accumulation over
  the eight column blocks, the sums over eight blocks of 2048 columns each, which regroup (sums in a
  commutative monoid) into the sums over all 16384 columns of the specification; and the weight block is the
  transposed weight, so its entry `(j, k)` is the weight's `(k, j)`.
-/
import proofs.«174661_j30812095381967_1_alg».proof.Proof.IdealAccum
import proofs.«174661_j30812095381967_1_alg».proof.Proof.IdealBlocks
import proofs.«174661_j30812095381967_1_alg».proof.Proof.IdealFrame
import proofs.«174661_j30812095381967_1_alg».proof.Proof.SageSpec
import proofs.«174661_j30812095381967_1_alg».proof.Proof.LibBlockSums
import Idealize.ShloMosaic.Lib.Pipeline.Value

set_option maxRecDepth 16384

noncomputable section

open scoped BigOperators

namespace Cert.Sage.Kernel

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arrays the region finds -/

abbrev featA (c : Dev nD) : FVec Ideal ⟨2, ![16384, 256]⟩ .f32 := V m c main_arg0
abbrev adjA (c : Dev nD) : FVec Ideal ⟨2, ![16384, 16384]⟩ .f32 := V m c main_arg1
abbrev weightA (c : Dev nD) : FVec Ideal ⟨2, ![256, 512]⟩ .f32 := m ((c : Thread nD τ).loc main_arg2)

/-! ## Positions of a row block -/

theorem pos_lt (i : Fin 16) (k : Fin 8) : i.val * 8 + k.val < cfg0.N := lt_N (by have := i.isLt; have := k.isLt; omega)

theorem rowOf_pos (i : Fin 16) (k : Fin 8) (p : Fin 1024) :
    rowOf ⟨i.val * 8 + k.val, pos_lt i k⟩ p = ⟨i.val * 1024 + p.val, by have := i.isLt; have := p.isLt; omega⟩ :=
  Fin.ext (by show (i.val * 8 + k.val) / 8 * 1024 + p.val = i.val * 1024 + p.val; have := k.isLt; omega)

theorem colOf_pos (i : Fin 16) (k : Fin 8) (j : Fin 2048) :
    colOf ⟨i.val * 8 + k.val, pos_lt i k⟩ j = ⟨k.val * 2048 + j.val, by have := k.isLt; have := j.isLt; omega⟩ :=
  Fin.ext (by show (i.val * 8 + k.val) % 8 * 2048 + j.val = k.val * 2048 + j.val; have := k.isLt; omega)

theorem last_lt (i : Fin 16) : i.val * 8 + 7 < cfg0.N := lt_N (by have := i.isLt; omega)

theorem rowOf_last (i : Fin 16) (p : Fin 1024) :
    rowOf ⟨i.val * 8 + 7, last_lt i⟩ p = ⟨i.val * 1024 + p.val, by have := i.isLt; have := p.isLt; omega⟩ :=
  Fin.ext (by show (i.val * 8 + 7) / 8 * 1024 + p.val = i.val * 1024 + p.val; omega)

/-! ## The accumulated sums are the specification's sums -/

/-- The eight block products of row block `i` add up to the weighted sum over all columns. -/
theorem acc_is_gathered (c : Dev nD) (i : Fin 16) (p : Fin 1024) (d : Fin 256) :
    accAt m c p d (i.val * 8 + 7)
      = Cert.Sage.gathered (featA m c) (adjA m c) ⟨i.val * 1024 + p.val, by have := i.isLt; have := p.isLt; omega⟩ d := by
  rw [acc_rowblock m c p d i]
  unfold Cert.Sage.gathered
  rw [Cert.BlockSums.sum_blocks 8 2048 (fun J : Fin 16384 => adjA m c (ix2 (⟨i.val * 1024 + p.val, by have := i.isLt; have := p.isLt; omega⟩ : Fin 16384) J) * featA m c (ix2 J d))]
  refine Finset.sum_congr rfl fun k _ => ?_
  unfold prodAt
  rw [dif_pos (pos_lt i k)]
  refine Finset.sum_congr rfl fun j _ => ?_
  exact congrArg₂ (· * ·)
    ((adjBlock_apply m c ⟨i.val * 8 + k.val, pos_lt i k⟩ p j).trans (by rw [rowOf_pos, colOf_pos]))
    ((featBlock_apply m c ⟨i.val * 8 + k.val, pos_lt i k⟩ j d).trans (by rw [colOf_pos]))

/-- The eight block row sums of row block `i` add up to the row's total weight. -/
theorem deg_is_rowWeight (c : Dev nD) (i : Fin 16) (p : Fin 1024) :
    degAt m c p (i.val * 8 + 7)
      = Cert.Sage.rowWeight (adjA m c) ⟨i.val * 1024 + p.val, by have := i.isLt; have := p.isLt; omega⟩ := by
  rw [deg_rowblock m c p i]
  unfold Cert.Sage.rowWeight
  rw [Cert.BlockSums.sum_blocks 8 2048 (fun J : Fin 16384 => adjA m c (ix2 (⟨i.val * 1024 + p.val, by have := i.isLt; have := p.isLt; omega⟩ : Fin 16384) J))]
  refine Finset.sum_congr rfl fun k _ => ?_
  unfold rowsumAt
  rw [dif_pos (pos_lt i k)]
  refine Finset.sum_congr rfl fun j _ => ?_
  exact (adjBlock_apply m c ⟨i.val * 8 + k.val, pos_lt i k⟩ p j).trans (by rw [rowOf_pos, colOf_pos])

/-! ## What a row block writes back -/

/-- Entry `(p, k)` of the block stored at the last column block of row block `i` is the specification at row `1024 i + p`. -/
theorem stored_entry (c : Dev nD) (i : Fin 16) (p : Fin 1024) (k : Fin 256) :
    (carried m c (i.val * 8 + 7) (last_lt i)).2.2 (ix2 p k)
      = Cert.Sage.entry (featA m c) (adjA m c) (weightA m c) ⟨i.val * 1024 + p.val, by have := i.isLt; have := p.isLt; omega⟩ k := by
  have h1 : (⟨i.val * 8 + 7, last_lt i⟩ : Fin cfg0.N).val % 8 = 7 := by show (i.val * 8 + 7) % 8 = 7; omega
  refine (out_last m c ⟨i.val * 8 + 7, last_lt i⟩ h1 p k).trans ?_
  unfold Cert.Sage.entry
  refine Finset.sum_congr rfl fun j _ => ?_
  refine congrArg₂ (· * ·) ?_
    ((weightBlock_apply m c ⟨i.val * 8 + 7, last_lt i⟩ j k).trans (weightT_apply m c j k))
  unfold Cert.Sage.joined
  by_cases hj : j.val < 256
  · rw [dif_pos hj, dif_pos hj]
    exact (selfBlock_apply m c ⟨i.val * 8 + 7, last_lt i⟩ p ⟨j.val, hj⟩).trans (by rw [rowOf_last])
  · rw [dif_neg hj, dif_neg hj]
    unfold Cert.Sage.neighbour
    show Ideal.div (accAt m c p _ (i.val * 8 + 7)) (degAt m c p (i.val * 8 + 7) + _) = _
    rw [acc_is_gathered, deg_is_rowWeight]

/-- What a point that writes back flushes is its block of the specification. -/
theorem flushed_eq (c : Dev nD) (t : Fin cfg0.N) (hf : (cfg0.win 4).flush t = true) :
    (dats m 0 c).flushed 4 t = ((cfg0.win 4).blk t).view.read (Elt Ideal) (Cert.Sage.sage (featA m c) (adjA m c) (weightA m c)) := by
  have h1 : t.val % 8 = 7 := (flush0_4 t).mp hf
  have ht : t.val < 128 := lt_of_lt_of_eq t.isLt N_0
  obtain ⟨i, rfl⟩ : ∃ i : Fin 16, t = ⟨i.val * 8 + 7, last_lt i⟩ := ⟨⟨t.val / 8, by omega⟩, Fin.ext (by show t.val = t.val / 8 * 8 + 7; omega)⟩
  show (cfg0.win 4).cut (grid0.coords _) ((dats m 0 c).after 4 _) = _
  rw [after4]
  refine funext fun (y : S1024x256.Idx) => ?_
  obtain ⟨p, k, rfl⟩ : ∃ (p : Fin 1024) (k : Fin 256), y = ix2 p k := ⟨y 0, y 1, eq_ix2 y⟩
  refine (stored_entry m c i p k).trans ?_
  rw [outBlock_read, Cert.Sage.sage_ix2, rowOf_last]

/-- Every index of the output array is in the block some writing point writes back. -/
theorem covered (i : S16384x256.Idx) :
    ∃ t : Fin cfg0.N, (cfg0.win 4).flush t = true ∧ i ∈ ((cfg0.win 4).blk t).view.set := by
  obtain ⟨r, k, rfl⟩ : ∃ (r : Fin 16384) (k : Fin 256), i = ix2 r k := ⟨i 0, i 1, eq_ix2 i⟩
  have hr := r.isLt
  refine ⟨⟨r.val / 1024 * 8 + 7, lt_N (by omega)⟩, (flush0_4 _).mpr (by show (r.val / 1024 * 8 + 7) % 8 = 7; omega), ?_⟩
  rw [mem_outBlock]
  show (r.val / 1024 * 8 + 7) / 8 * 1024 ≤ r.val ∧ r.val < (r.val / 1024 * 8 + 7) / 8 * 1024 + 1024
  omega

/-- The output array after the run is the specification of the arrays the region finds. -/
theorem final (c : Dev nD) :
    (dats m 0 c).arrAt 4 cfg0.N = Cert.Sage.sage (featA m c) (adjA m c) (weightA m c) :=
  (dats m 0 c).arrAt_eq_of_cover 4 _ (fun t hf => flushed_eq m c t hf) (covered)

/-! ## The kernel's run -/

/-- Every weakly fair execution of the kernel's program ends with its result at the specification of the launch
    contents of its arguments, and the arguments unchanged. -/
theorem kernel_run : θ_run defs (onTc (τ := τ) (main (F := Ideal))) ⟨m, fun _ => 0, ρ⟩ (fun r => ∀ c : Dev nD,
      r.2.mem ((c.tc : Thread nD τ).loc main_v1)
        = Cert.Sage.sage (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).1 4).trans ((final m c).trans (by
          show Cert.Sage.sage (V m c main_arg0) (V m c main_arg1) _ = _
          rw [V_main_arg0, V_main_arg1])),
       ((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c))),
       ((h c).2).trans (V_main_arg2 m c)⟩)
    (run_main m ρ)

end Cert.Sage.Kernel

end
-- ==== Proof.RefIsSage.lean ====
/-
  The reference program's result is the specification function, index by index, on the extended reals.

  The reference computes, for a dense weight matrix `adj` (16384 × 16384), features `feat` (16384 × 256) and a
  weight `w` (256 × 512): the row sums of `adj` as a column, plus one; the product `adj · feat`; the quotient of
  the product by the column, spread over the 256 feature positions; the features and that quotient side by side
  (width 512); and the product of that joined array with the transpose of `w`.  Each stage is read at a pair of
  literal-typed coordinates `(r, d)` and identified with the corresponding function of the specification; the
  sums are plain sums over `Fin n` on both sides, summand by summand, so nothing here regroups a sum and nothing
  needs an entry to be finite.
-/
import proofs.«174661_j30812095381967_1_alg».proof.Proof.Gen.ReferenceIdeal.Read
import proofs.«174661_j30812095381967_1_alg».proof.Proof.SageSpec

noncomputable section

open scoped BigOperators

namespace Cert.Sage.Ref

open Cert.ReferenceIdeal Cert.ReferenceIdeal.Gen Cert.ReferenceIdeal.Read
open Idealize.ShloMosaic Idealize.ShloMosaic.ValueIdx

/-- The divisor at `(r, d)`: the total weight of row `r` plus one, whatever the feature position `d`.  The row sum
    starts from the zero word, which is the extended real `0`. -/
theorem divisor_ix2 (x1 : (⟨S16384x16384, .f32⟩ : BufTy).Contents (Elt Ideal)) (r : Fin 16384) (d : Fin 256) :
    val_main_v5 (F := Ideal) x1 (ix2 r d) = Cert.Sage.rowWeight x1 r + Ideal.ofBits .f32 0x3F800000#32 := by
  rw [val_main_v5_apply, val_main_v3_apply, val_main_v1_apply, val_main_v2_apply, val_main_cst_0_apply,
    val_main_v0_apply, val_main_cst_apply]
  show (Ideal.ofBits .f32 0x00000000#32 + _) + Ideal.ofBits .f32 0x3F800000#32 = _
  rw [Ideal.ofBits_zero_f32, zero_add]
  have e : ∀ k : Fin 16384, idx_main_v0 (idx_main_v1 (idx_main_v5 (ix2 r d))) k = ix2 r k := fun k => by
    funext a
    match a with
    | ⟨0, _⟩ => rfl
    | ⟨1, _⟩ => rfl
  unfold Cert.Sage.rowWeight
  rw [Finset.sum_congr rfl fun k _ => congrArg x1 (e k)]

/-- The product `adj · feat` at `(r, d)` is the weighted sum of the neighbours' feature `d`. -/
theorem gathered_ix2 (x0 : (⟨S16384x256, .f32⟩ : BufTy).Contents (Elt Ideal))
    (x1 : (⟨S16384x16384, .f32⟩ : BufTy).Contents (Elt Ideal)) (r : Fin 16384) (d : Fin 256) :
    val_main_v4 (F := Ideal) x0 x1 (ix2 r d) = Cert.Sage.gathered x0 x1 r d := by
  rw [val_main_v4_apply]
  unfold Cert.Sage.gathered
  refine Finset.sum_congr rfl fun k _ => ?_
  have el : lidx_main_v4 (ix2 r d) k = ix2 r k := by
    funext a
    match a with
    | ⟨0, _⟩ => rfl
    | ⟨1, _⟩ => rfl
  have er : ridx_main_v4 (ix2 r d) k = ix2 k d := by
    funext a
    match a with
    | ⟨0, _⟩ => rfl
    | ⟨1, _⟩ => rfl
  rw [el, er]

/-- The quotient at `(r, d)` is the normalised neighbour mean. -/
theorem neighbour_ix2 (x0 : (⟨S16384x256, .f32⟩ : BufTy).Contents (Elt Ideal))
    (x1 : (⟨S16384x16384, .f32⟩ : BufTy).Contents (Elt Ideal)) (r : Fin 16384) (d : Fin 256) :
    val_main_v6 (F := Ideal) x0 x1 (ix2 r d) = Cert.Sage.neighbour x0 x1 r d := by
  rw [val_main_v6_apply, gathered_ix2, divisor_ix2]
  rfl

/-- The joined array at `(r, j)`, `j` among the first 256 positions: the node's own feature `j`. -/
theorem joined_ix2_left (x0 : (⟨S16384x256, .f32⟩ : BufTy).Contents (Elt Ideal))
    (x1 : (⟨S16384x16384, .f32⟩ : BufTy).Contents (Elt Ideal)) (r : Fin 16384) (j : Fin 512) (h : j.val < 256) :
    val_main_v7 (F := Ideal) x0 x1 (ix2 r j) = x0 (ix2 r ⟨j.val, h⟩) := by
  unfold val_main_v7
  exact concatenate_pair_apply_left 1 x0 (val_main_v6 (F := Ideal) x0 x1)
    concatenates_S16384x256_S16384x256_S16384x512_d1 (ix2 r j) rfl (ix2 r ⟨j.val, h⟩)
    (fun b => match b with
      | ⟨0, _⟩ => rfl
      | ⟨1, _⟩ => rfl)

/-- The joined array at `(r, j)`, `j` among the last 256 positions: the quotient at `(r, j - 256)`. -/
theorem joined_ix2_right (x0 : (⟨S16384x256, .f32⟩ : BufTy).Contents (Elt Ideal))
    (x1 : (⟨S16384x16384, .f32⟩ : BufTy).Contents (Elt Ideal)) (r : Fin 16384) (j : Fin 512) (h : ¬ j.val < 256) :
    val_main_v7 (F := Ideal) x0 x1 (ix2 r j)
      = val_main_v6 (F := Ideal) x0 x1 (ix2 r ⟨j.val - 256, by have := j.isLt; omega⟩) := by
  unfold val_main_v7
  exact concatenate_pair_apply_right 1 x0 (val_main_v6 (F := Ideal) x0 x1)
    concatenates_S16384x256_S16384x256_S16384x512_d1 (ix2 r j) rfl rfl (ix2 r ⟨j.val - 256, by have := j.isLt; omega⟩)
    (fun b hb => match b, hb with
      | ⟨0, _⟩, _ => rfl
      | ⟨1, _⟩, hb => absurd rfl hb)
    (by show j.val - 256 + 256 = j.val; omega)

/-- The joined array at `(r, j)` is the specification's joined row. -/
theorem joined_ix2 (x0 : (⟨S16384x256, .f32⟩ : BufTy).Contents (Elt Ideal))
    (x1 : (⟨S16384x16384, .f32⟩ : BufTy).Contents (Elt Ideal)) (r : Fin 16384) (j : Fin 512) :
    val_main_v7 (F := Ideal) x0 x1 (ix2 r j) = Cert.Sage.joined x0 x1 r j := by
  unfold Cert.Sage.joined
  by_cases h : j.val < 256
  · rw [dif_pos h, joined_ix2_left x0 x1 r j h]
  · rw [dif_neg h, joined_ix2_right x0 x1 r j h, neighbour_ix2]

/-- The reference's result is the specification function. -/
theorem reference_is_sage
    (x0 : (⟨Cert.ReferenceIdeal.S16384x256, .f32⟩ : BufTy).Contents (Elt Ideal))
    (x1 : (⟨Cert.ReferenceIdeal.S16384x16384, .f32⟩ : BufTy).Contents (Elt Ideal))
    (x2 : (⟨Cert.ReferenceIdeal.S256x512, .f32⟩ : BufTy).Contents (Elt Ideal)) :
    Cert.ReferenceIdeal.Read.val_main_v9 (F := Ideal) x0 x1 x2 = Cert.Sage.sage x0 x1 x2 := by
  funext i
  obtain ⟨r, c, rfl⟩ : ∃ (r : Fin 16384) (c : Fin 256), i = ix2 r c := ⟨i 0, i 1, eq_ix2 i⟩
  rw [val_main_v9_apply, Cert.Sage.sage_ix2]
  unfold Cert.Sage.entry
  refine Finset.sum_congr rfl fun j _ => ?_
  have el : lidx_main_v9 (ix2 r c) j = ix2 r j := by
    funext a
    match a with
    | ⟨0, _⟩ => rfl
    | ⟨1, _⟩ => rfl
  have er : idx_main_v8 (ridx_main_v9 (ix2 r c) j) = ix2 c j := by
    funext a
    match a with
    | ⟨0, _⟩ => rfl
    | ⟨1, _⟩ => rfl
  rw [el, joined_ix2, val_main_v8_apply, er]

end Cert.Sage.Ref

end
-- ==== Proof.lean ====
/-
  The certificate of a fused dense-graph aggregation kernel against its plain reference, over the extended reals.

  Both programs compute, for a graph on 16384 nodes given by a dense weight matrix `adj` and node features of
  width 256: each node's neighbour mean — the `adj`-weighted sum of the features divided by the row's total
  weight plus one —, joined to the node's own features and mapped through the transposed weight.  The
  reference does it with whole-array operations.  The kernel walks a 16 × 8 grid of 1024 × 2048 blocks of
  `adj`, adds each block's product with the matching 2048 rows of the features, and each block's row sums,
  into two accumulators it keeps from one column block to the next, and at the last column block of a row
  block divides, joins and multiplies by the weight, writing one 1024-row block of the result.

  On the extended reals the two are the same function: a sum over 16384 columns is the sum of its eight
  block sums (addition of extended reals is commutative and associative, infinities included), the kernel's
  zero-initialised products and sums add a zero, and the quotient and the final product are taken of equal
  arguments.  No finiteness of the inputs is used; the precondition is never opened.

  The frames of the two kernel programs (they run to the end, fault nowhere, and leave their arguments as
  launched) rest on the accumulation's proof data and on a launch in which the features' array, which two
  windows read, is held at half the share by each.  The reference's frame is its run with the result dropped.
  The idealization rewrote no operation, so `preserves` has nothing to state.
-/
import proofs.«174661_j30812095381967_1_alg».proof.Defs
import proofs.«174661_j30812095381967_1_alg».proof.Proof.Gen.Kernel
import proofs.«174661_j30812095381967_1_alg».proof.Proof.Gen.KernelIdeal
import proofs.«174661_j30812095381967_1_alg».proof.Proof.Gen.ReferenceIdeal
import proofs.«174661_j30812095381967_1_alg».proof.Proof.Gen.Pre_finite_inputs
import proofs.«174661_j30812095381967_1_alg».proof.Proof.Gen.ReferenceIdeal.Read
import proofs.«174661_j30812095381967_1_alg».proof.Proof.BitsFrame
import proofs.«174661_j30812095381967_1_alg».proof.Proof.IdealFrame
import proofs.«174661_j30812095381967_1_alg».proof.Proof.IdealFinal
import proofs.«174661_j30812095381967_1_alg».proof.Proof.RefIsSage

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Hand.frame m ρ

/-- So does its reading at the extended reals. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the specification of the
    arguments — the kernel's by the accumulation over its grid, the reference's operation by operation. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Sage.Kernel.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _).trans ?_
  rw [Cert.Sage.Ref.reference_is_sage, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
